-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S800000 : Shape := ⟨1, ![800000]⟩
abbrev S100x64 : Shape := ⟨2, ![100, 64]⟩
abbrev S64 : Shape := ⟨1, ![64]⟩
abbrev S64x64 : Shape := ⟨2, ![64, 64]⟩
abbrev S64x47 : Shape := ⟨2, ![64, 47]⟩
abbrev S47 : Shape := ⟨1, ![47]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x47 : S_.BroadcastsInDim S64x47 (![] : Fin 0 → Fin S64x47.rank)
  reducesTo_S64x47_S_d0_1 : S64x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S64x47 .f32) (main_arg10 : FVec F S64x47 .f32) (main_arg11 : FVec F S47 .f32) (main_v33 : IVec S_ 1) : IVec S_ 1 :=
  let main_v34 : FVec F S64x47 .f32 := Host.absf main_arg9
  let main_cst_12 : FVec F S_ .f32 := constant S_ .f32 0x7F800000#32
  let main_v35 : FVec F S64x47 .f32 := broadcastInDim S64x47 ![] bcast_S_S64x47 main_cst_12
  let main_v36 : IVec S64x47 1 := cmpf .olt main_v34 main_v35
  let main_c_13 : IVec S_ 1 := constantI S_ 1 1#1
  let main_v37 : IVec S_ 1 := (fun x v => Host.reduce IntOp.andi x v reducesTo_S64x47_S_d0_1 h_S_) main_v36 main_c_13
  let main_v38 : IVec S_ 1 := andi main_v33 main_v37
  let main_v39 : FVec F S64x47 .f32 := Host.absf main_arg10
  let main_cst_14 : FVec F S_ .f32 := constant S_ .f32 0x7F800000#32
  let main_v40 : FVec F S64x47 .f32 := broadcastInDim S64x47 ![] bcast_S_S64x47 main_cst_14
  let main_v41 : IVec S64x47 1 := cmpf .olt main_v39 main_v40
  let main_c_15 : IVec S_ 1 := constantI S_ 1 1#1
  let main_v42 : IVec S_ 1 := (fun x v => Host.reduce IntOp.andi x v reducesTo_S64x47_S_d0_1 h_S_) main_v41 main_c_15
  let main_v43 : IVec S_ 1 := andi main_v38 main_v42
  let main_v44 : FVec F S47 .f32 := Host.absf main_arg11
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg6 : FVec F S64x64 .f32) (main_arg7 : FVec F S64x64 .f32) (main_arg8 : FVec F S64 .f32) (main_arg9 : FVec F S64x47 .f32) (main_arg10 : FVec F S64x47 .f32) (main_arg11 : FVec F S47 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S100000x100 .f32) (main_arg1 : IVec S800000 32) (main_arg2 : IVec S800000 32) (main_arg3 : FVec F S100x64 .f32) (main_arg4 : FVec F S100x64 .f32) (main_arg5 : FVec F S64 .f32) (main_arg6 : FVec F S64x64 .f32) (main_arg7 : FVec F S64x64 .f32) (main_arg8 : FVec F S64 .f32) (main_arg9 : FVec F S64x47 .f32) (main_arg10 : FVec F S64x47 .f32) (main_arg11 : FVec F S47 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x64 .f32 := Host.absf main_arg3
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S100x64 .f32 := Host.absf main_arg4
  let main_cst_2 : FVec F S_ .f32 := constant S_ .f32 0x7F800000#32
  let main_v10 : FVec F S100x64 .f32 := broadcastInDim S100x64 ![] bcast_S_S100x64 main_cst_2
  let main_v11 : IVec S100x64 1 := cmpf .olt main_v9 main_v10
  let main_c_3 : IVec S_ 1 := constantI S_ 1 1#1
  let main_v12 : IVec S_ 1 := (fun x v => Host.reduce IntOp.andi x v reducesTo_S100x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x100 : Shape := ⟨2, ![100000, 100]⟩
abbrev S800000 : Shape := ⟨1, ![800000]⟩
abbrev S100x64 : Shape := ⟨2, ![100, 64]⟩
abbrev S64 : Shape := ⟨1, ![64]⟩
abbrev S64x64 : Shape := ⟨2, ![64, 64]⟩
abbrev S64x47 : Shape := ⟨2, ![64, 47]⟩
abbrev S47 : Shape := ⟨1, ![47]⟩
abbrev S_ : Shape := ⟨0, ![]⟩
abbrev S100000 : Shape := ⟨1, ![100000]⟩
abbrev S800000x1 : Shape := ⟨2, ![800000, 1]⟩
abbrev S800000x100 : Shape := ⟨2, ![800000, 100]⟩
abbrev S100000x1 : Shape := ⟨2, ![100000, 1]⟩
abbrev S1x64 : Shape := ⟨2, ![1, 64]⟩
abbrev S100000x64 : Shape := ⟨2, ![100000, 64]⟩
abbrev S5000x100 : Shape := ⟨2, ![5000, 100]⟩
abbrev S5000x64 : Shape := ⟨2, ![5000, 64]⟩
abbrev S800000x64 : Shape := ⟨2, ![800000, 64]⟩
abbrev S1x47 : Shape := ⟨2, ![1, 47]⟩
abbrev S100000x47 : Shape := ⟨2, ![100000, 47]⟩
abbrev S5000x47 : Shape := ⟨2, ![5000, 47]⟩

abbrev nBuf : Space → Nat
  | .hbm => 78
  | .vmem => 27
  | .smem => 0
  | _ => 0

abbrev bufTy : (tb : Table) → Fin (tcTables nBuf tb) → BufTy
  | .hbm, ⟨0, _⟩ => ⟨S100000x100, .f32⟩
  | .hbm, ⟨1, _⟩ => ⟨S800000, .i32⟩
  | .hbm, ⟨2, _⟩ => ⟨S800000, .i32⟩
  | .hbm, ⟨3, _⟩ => ⟨S100x64, .f32⟩
  | .hbm, ⟨4, _⟩ => ⟨S100x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x47, .f32⟩
  | .hbm, ⟨10, _⟩ => ⟨S64x47, .f32⟩
  | .hbm, ⟨11, _⟩ => ⟨S47, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S100000, .f32⟩
  | .hbm, ⟨16, _⟩ => ⟨S800000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x100, .f32⟩
  | .hbm, ⟨33, _⟩ => ⟨S_, .f32⟩
  | .hbm, ⟨34, _⟩ => ⟨S100000x100, .f32⟩
  | .hbm, ⟨35, _⟩ => ⟨S800000x1, .i32⟩
  | .hbm, ⟨36, _⟩ => ⟨S100000x100, .f32⟩
  | .hbm, ⟨37, _⟩ => ⟨S100000x1, .f32⟩
  | .hbm, ⟨38, _⟩ => ⟨S100000x100, .f32⟩
  | .hbm, ⟨39, _⟩ => ⟨S100000x100, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S100000x64, .f32⟩
  | .hbm, ⟨53, _⟩ => ⟨S800000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S_, .f32⟩
  | .hbm, ⟨70, _⟩ => ⟨S100000x64, .f32⟩
  | .hbm, ⟨71, _⟩ => ⟨S800000x1, .i32⟩
  | .hbm, ⟨72, _⟩ => ⟨S100000x64, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S1x47, .f32⟩
  | .hbm, ⟨77, _⟩ => ⟨S100000x47, .f32⟩
  | .local _ .vmem, ⟨0, _⟩ => ⟨S5000x100, .f32⟩
  | .local _ .vmem, ⟨1, _⟩ => ⟨S5000x100, .f32⟩
  | .local _ .vmem, ⟨2, _⟩ => ⟨S5000x100, .f32⟩
  | .local _ .vmem, ⟨3, _⟩ => ⟨S5000x100, .f32⟩
  | .local _ .vmem, ⟨4, _⟩ => ⟨S100x64, .f32⟩
  | .local _ .vmem, ⟨5, _⟩ => ⟨S100x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x47, .f32⟩
  | .local _ .vmem, ⟨23, _⟩ => ⟨S64x47, .f32⟩
  | .local _ .vmem, ⟨24, _⟩ => ⟨S1x47, .f32⟩
  | .local _ .vmem, ⟨25, _⟩ => ⟨S5000x47, .f32⟩
  | .local _ .vmem, ⟨26, _⟩ => ⟨S5000x47, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x100 : S_.BroadcastsInDim S100000x100 (![] : Fin 0 → Fin S100000x100.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  shapeCasts_S64_S1x64 : S64.ShapeCasts S1x64
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  shapeCasts_S5000x100_S5000x100 : S5000x100.ShapeCasts S5000x100
  inb_S100x64_S100x64_0_0 : ∀ a, (![0, 0] : Fin 2 → Nat) a + S100x64.size a ≤ S100x64.size a
  h_S100x64 : 0 < S100x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S47_S1x47 : S47.ShapeCasts S1x47
  inb_S64x47_S64x47_0_0 : ∀ a, (![0, 0] : Fin 2 → Nat) a + S64x47.size a ≤ S64x47.size a
  h_S64x47 : 0 < S64x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  scatter_S100000_S800000x1_S800000_n_0_0_1_wf : ScatterDims.WF S100000 S800000x1 S800000 [] [0] [0] 1
  gather_S100000x100_S800000x1_S800000x100_1_0_n_n_0_1_1100_wf : GatherDims.WF S100000x100 S800000x1 S800000x100 [1] [0] [] [0] [] 1 ![1, 100]
  scatter_S100000x100_S800000x1_S800000x100_1_0_0_1_wf : ScatterDims.WF S100000x100 S800000x1 S800000x100 [1] [0] [0] 1
  dot_S5000x100_S100x64_S5000x64_1_0_0_1_n_n_wf : DotDims.WF S5000x100 S100x64 S5000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S5000x64_S64x64_S5000x64_1_0_0_1_n_n_wf : DotDims.WF S5000x64 S64x64 S5000x64 [1] [0] [0] [1] [] []
  dot_S5000x64_S64x47_S5000x47_1_0_0_1_n_n_wf : DotDims.WF S5000x64 S64x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x100.size a ≤ S100000x100.size a
  hwx0_1 : ∀ i : grid0.Coords, EltTy.bits .f32 = 32 ∨ (Rect.block (s := S100000x100) S5000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x64.size a ≤ S100x64.size a
  hwx0_2 : ∀ i : grid0.Coords, EltTy.bits .f32 = 32 ∨ (Rect.block (s := S100x64) S100x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x64.size a ≤ S100x64.size a
  hwx0_3 : ∀ i : grid0.Coords, EltTy.bits .f32 = 32 ∨ (Rect.block (s := S100x64) S100x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x47.size a ≤ S64x47.size a
  hwx2_2 : ∀ i : grid2.Coords, EltTy.bits .f32 = 32 ∨ (Rect.block (s := S64x47) S64x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x47.size a ≤ S64x47.size a
  hwx2_3 : ∀ i : grid2.Coords, EltTy.bits .f32 = 32 ∨ (Rect.block (s := S64x47) S64x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x47.size a ≤ S100000x47.size a
  hwx2_5 : ∀ i : grid2.Coords, EltTy.bits .f32 = 32 ∨ (Rect.block (s := S100000x47) S5000x47.size (cc2_transform_5 i) (hinb2_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x100_S800000x1_S800000x100_1_0_n_n_0_1_1100 : GatherDims S100000x100 S800000x1 S800000x100 where
  offsetDims := [1]
  collapsedSliceDims := [0]
  operandBatchingDims := []
  startIndicesBatchingDims := []
  startIndexMap := [0]
  indexVectorDim := 1
  sliceSizes := ![1, 100]
  wf := gather_S100000x100_S800000x1_S800000x100_1_0_n_n_0_1_1100_wf
def scatter_S100000x100_S800000x1_S800000x100_1_0_0_1 : ScatterDims S100000x100 S800000x1 S800000x100 where
  updateWindowDims := [1]
  insertedWindowDims := [0]
  scatterDimsToOperandDims := [0]
  indexVectorDim := 1
  wf := scatter_S100000x100_S800000x1_S800000x100_1_0_0_1_wf
def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x47_S5000x47_1_0_0_1_n_n : DotDims S5000x64 S64x47 S5000x47 where
  lhsContracting := [1]
  rhsContracting := [0]
  lhsNonContracting := [0]
  rhsNonContracting := [1]
  lhsBatch := []
  rhsBatch := []
  wf := dot_S5000x64_S64x47_S5000x47_1_0_0_1_n_n_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S100x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S100x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x100 : Shape := ⟨2, ![100000, 100]⟩
abbrev S800000 : Shape := ⟨1, ![800000]⟩
abbrev S100x64 : Shape := ⟨2, ![100, 64]⟩
abbrev S64 : Shape := ⟨1, ![64]⟩
abbrev S64x64 : Shape := ⟨2, ![64, 64]⟩
abbrev S64x47 : Shape := ⟨2, ![64, 47]⟩
abbrev S47 : Shape := ⟨1, ![47]⟩
abbrev S_ : Shape := ⟨0, ![]⟩
abbrev S800000x1 : Shape := ⟨2, ![800000, 1]⟩
abbrev S800000x100 : Shape := ⟨2, ![800000, 100]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S800000x64 : Shape := ⟨2, ![800000, 64]⟩
abbrev S100000x47 : Shape := ⟨2, ![100000, 47]⟩
abbrev S1x47 : Shape := ⟨2, ![1, 47]⟩

abbrev nBuf : Space → Nat
  | .hbm => 111
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S800000, .i32⟩
  | .hbm, ⟨2, _⟩ => ⟨S800000, .i32⟩
  | .hbm, ⟨3, _⟩ => ⟨S100x64, .f32⟩
  | .hbm, ⟨4, _⟩ => ⟨S100x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x47, .f32⟩
  | .hbm, ⟨10, _⟩ => ⟨S64x47, .f32⟩
  | .hbm, ⟨11, _⟩ => ⟨S47, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x100, .f32⟩
  | .hbm, ⟨21, _⟩ => ⟨S_, .f32⟩
  | .hbm, ⟨22, _⟩ => ⟨S100000x100, .f32⟩
  | .hbm, ⟨23, _⟩ => ⟨S800000x1, .i32⟩
  | .hbm, ⟨24, _⟩ => ⟨S100000x100, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x100, .f32⟩
  | .hbm, ⟨36, _⟩ => ⟨S100000x100, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S100000x64, .f32⟩
  | .hbm, ⟨57, _⟩ => ⟨S800000x1, .i32⟩
  | .hbm, ⟨58, _⟩ => ⟨S100000x64, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S100000, .f32⟩
  | .hbm, ⟨63, _⟩ => ⟨S800000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x64, .f32⟩
  | .hbm, ⟨89, _⟩ => ⟨S_, .f32⟩
  | .hbm, ⟨90, _⟩ => ⟨S100000x64, .f32⟩
  | .hbm, ⟨91, _⟩ => ⟨S800000x1, .i32⟩
  | .hbm, ⟨92, _⟩ => ⟨S100000x64, .f32⟩
  | .hbm, ⟨93, _⟩ => ⟨S_, .f32⟩
  | .hbm, ⟨94, _⟩ => ⟨S800000, .f32⟩
  | .hbm, ⟨95, _⟩ => ⟨S_, .f32⟩
  | .hbm, ⟨96, _⟩ => ⟨S100000, .f32⟩
  | .hbm, ⟨97, _⟩ => ⟨S800000x1, .i32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S100000x47, .f32⟩
  | .hbm, ⟨106, _⟩ => ⟨S100000x47, .f32⟩
  | .hbm, ⟨107, _⟩ => ⟨S100000x47, .f32⟩
  | .hbm, ⟨108, _⟩ => ⟨S1x47, .f32⟩
  | .hbm, ⟨109, _⟩ => ⟨S100000x47, .f32⟩
  | .hbm, ⟨110, _⟩ => ⟨S100000x47, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x100 : S_.BroadcastsInDim S100000x100 (![] : Fin 0 → Fin S100000x100.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  gather_S100000x100_S800000x1_S800000x100_1_0_n_n_0_1_1100_wf : GatherDims.WF S100000x100 S800000x1 S800000x100 [1] [0] [] [0] [] 1 ![1, 100]
  scatter_S100000x100_S800000x1_S800000x100_1_0_0_1_wf : ScatterDims.WF S100000x100 S800000x1 S800000x100 [1] [0] [0] 1
  scatter_S100000_S800000x1_S800000_n_0_0_1_wf : ScatterDims.WF S100000 S800000x1 S800000 [] [0] [0] 1
  dot_S100000x100_S100x64_S100000x64_1_0_0_1_n_n_wf : DotDims.WF S100000x100 S100x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x64_S100000x64_1_0_0_1_n_n_wf : DotDims.WF S100000x64 S64x64 S100000x64 [1] [0] [0] [1] [] []
  dot_S100000x64_S64x47_S100000x47_1_0_0_1_n_n_wf : DotDims.WF S100000x64 S64x47 S100000x47 [1] [0] [0] [1] [] []

variable [Facts₀]

def gather_S100000x100_S800000x1_S800000x100_1_0_n_n_0_1_1100 : GatherDims S100000x100 S800000x1 S800000x100 where
  offsetDims := [1]
  collapsedSliceDims := [0]
  operandBatchingDims := []
  startIndicesBatchingDims := []
  startIndexMap := [0]
  indexVectorDim := 1
  sliceSizes := ![1, 100]
  wf := gather_S100000x100_S800000x1_S800000x100_1_0_n_n_0_1_1100_wf
def scatter_S100000x100_S800000x1_S800000x100_1_0_0_1 : ScatterDims S100000x100 S800000x1 S800000x100 where
  updateWindowDims := [1]
  insertedWindowDims := [0]
  scatterDimsToOperandDims := [0]
  indexVectorDim := 1
  wf := scatter_S100000x100_S800000x1_S800000x100_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x100_S100x64_S100000x64_1_0_0_1_n_n : DotDims S100000x100 S100x64 S100000x64 where
  lhsContracting := [1]
  rhsContracting := [0]
  lhsNonContracting := [0]
  rhsNonContracting := [1]
  lhsBatch := []
  rhsBatch := []
  wf := dot_S100000x100_S100x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x47_S100000x47_1_0_0_1_n_n : DotDims S100000x64 S64x47 S100000x47 where
  lhsContracting := [1]
  rhsContracting := [0]
  lhsNonContracting := [0]
  rhsNonContracting := [1]
  lhsBatch := []
  rhsBatch := []
  wf := dot_S100000x64_S64x47_S100000x47_1_0_0_1_n_n_wf

class Facts : Prop extends Facts₀ where

variable [Facts]
-- ==== Proof.KernelRun.lean ====
/-
  The kernel program's run, with the result named.

  The program is three pallas_calls among three stretches of host operations. Its run is the library's run of a list of
  segments (a host stretch is a segment, a pallas_call is a segment); the thread state between two segments says that
  every unscoped buffer holds the contents the fold through the program gives it at that boundary. After the last
  segment the buffers hold the last boundary's contents `W6`: the arguments are there as launched, and the result buffer
  holds what the third call's write-backs leave in it. This module states that run with the result buffer in the
  postcondition, beside the unchanged arguments.
-/
import proofs.«164498_j43396349559222_1_alg».proof.Proof.PatchedFrameKI

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with the statement, which takes
-- unfolding plain definitions in a metavariable's type
set_option backward.isDefEq.respectTransparency.types false in
/-- THE RUN: every weakly fair execution of @main terminates, nothing faulting; the result buffer ends at the last
    boundary's contents and the twelve arguments as launched. The library's run of the six segments: the launch deals
    the pipelines' ghost state and nothing else per core; the first thread state is the unscoped buffers at the launch
    memory beside the generator register and nothing owed; the last thread state, read against a final memory, puts
    every unscoped buffer at the last boundary's contents — the result buffer among them. -/
theorem run_result : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Run

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«164498_j43396349559222_1_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.LibBroadcastInDimPair.lean ====
/-
  A host `broadcast_in_dim` of a rank-2 operand with a unit axis onto axes (0, 1) of a rank-2 result, read at an index,
  in the style of the library's Lib/ValueLayout.lean (which has the vector-broadcast forms): a COLUMN [a, 1] spread along
  the second axis of [a, b], and a ROW [1, b] spread down the first axis of [a, b].  General in the two extents and in the
  element type.
-/
import Idealize.ShloMosaic.Lib.Pipeline.Value
import Idealize.ShloMosaic.Lib.ValueIdx

noncomputable section

namespace Idealize.ShloMosaic.ValueIdx

variable {α : Type}

/-- A column `[a, 1]` placed on axes (0, 1) of `[a, b]` reads, at `(p, c)`, the column's entry of row `p`. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` placed on axes (0, 1) of `[a, b]` reads, at `(p, c)`, the row's entry of column `c`. -/
theorem broadcastInDim_row_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx

end
-- ==== Proof.LibSageDense.lean ====
/-
  A dense graph-convolution layer on the extended reals, entry by entry, and the three programs' forms of it.

  For a node-feature array `h` (M rows of K features), an aggregated-neighbour array `hn` of the same shape, two weight
  matrices `ws`, `wn` (K by N) and a bias row `b` (1 by N), entry (p, q) of the layer is
      (sum over k of h[p, k] * ws[k, q]) + (sum over k of hn[p, k] * wn[k, q]) + b[0, q],
  optionally clamped below at zero (the rectifier).
  * A kernel computes a block of m rows of it: two matrix-unit products into zero accumulators, added, plus the bias row
    spread down the block. Entry (r, q) of the block is the layer's entry of the block's own rows.
  * A host program computes the whole array: two `dot_general`s, added, plus the bias row spread down the array.
  Neither needs finiteness: both are literally the same sums in the same grouping.
  General in every extent.
-/
import Idealize.ShloMosaic.PureOps.Ideal.Laws
import Idealize.ShloMosaic.Lib.ValueIdx
import Idealize.ShloMosaic.Lib.ValueLayout
import Idealize.ShloMosaic.Lib.Pipeline.Value
import proofs.«164498_j43396349559222_1_alg».proof.Proof.LibMatmulNN
import proofs.«164498_j43396349559222_1_alg».proof.Proof.LibDotGeneralNN
import proofs.«164498_j43396349559222_1_alg».proof.Proof.LibBroadcastInDimPair

noncomputable section

open scoped BigOperators

namespace LibSageDense

open Idealize.ShloMosaic Idealize.ShloMosaic.ValueIdx

variable (M K N : Nat)

/-- Entry `(p, q)` of the layer: the two contractions over the K features, added, plus the bias of column `q`. -/
def entry (h hn : (⟨2, ![M, K]⟩ : Shape).Idx → EReal) (ws wn : (⟨2, ![K, N]⟩ : Shape).Idx → EReal)
    (b : (⟨2, ![1, N]⟩ : Shape).Idx → EReal) (p : Fin M) (q : Fin N) : EReal :=
  (∑ k : Fin K, h (ix2 p k) * ws (ix2 k q)) + (∑ k : Fin K, hn (ix2 p k) * wn (ix2 k q)) + b (ix2 (0 : Fin 1) q)

/-- The layer as one array, without the rectifier. -/
def dense (h hn : (⟨2, ![M, K]⟩ : Shape).Idx → EReal) (ws wn : (⟨2, ![K, N]⟩ : Shape).Idx → EReal)
    (b : (⟨2, ![1, N]⟩ : Shape).Idx → EReal) : (⟨2, ![M, N]⟩ : Shape).Idx → EReal :=
  fun i => entry M K N h hn ws wn b (i 0) (i 1)

/-- The layer as one array, clamped below at zero. -/
def denseRelu (h hn : (⟨2, ![M, K]⟩ : Shape).Idx → EReal) (ws wn : (⟨2, ![K, N]⟩ : Shape).Idx → EReal)
    (b : (⟨2, ![1, N]⟩ : Shape).Idx → EReal) : (⟨2, ![M, N]⟩ : Shape).Idx → EReal :=
  fun i => max (entry M K N h hn ws wn b (i 0) (i 1)) 0

theorem dense_apply (h hn : (⟨2, ![M, K]⟩ : Shape).Idx → EReal) (ws wn : (⟨2, ![K, N]⟩ : Shape).Idx → EReal)
    (b : (⟨2, ![1, N]⟩ : Shape).Idx → EReal) (p : Fin M) (q : Fin N) :
    dense M K N h hn ws wn b (ix2 p q) = entry M K N h hn ws wn b p q := rfl

theorem denseRelu_apply (h hn : (⟨2, ![M, K]⟩ : Shape).Idx → EReal) (ws wn : (⟨2, ![K, N]⟩ : Shape).Idx → EReal)
    (b : (⟨2, ![1, N]⟩ : Shape).Idx → EReal) (p : Fin M) (q : Fin N) :
    denseRelu M K N h hn ws wn b (ix2 p q) = max (entry M K N h hn ws wn b p q) 0 := rfl

/-- A block's entry is the whole array's entry of the block's row: the block's rows of `h` and `hn` are rows `p` of the
    arrays, the weights and the bias are the arrays themselves. -/
theorem entry_of_rows {m : Nat} (x0 x1 : (⟨2, ![m, K]⟩ : Shape).Idx → EReal) (h hn : (⟨2, ![M, K]⟩ : Shape).Idx → EReal)
    (ws wn : (⟨2, ![K, N]⟩ : Shape).Idx → EReal) (b : (⟨2, ![1, N]⟩ : Shape).Idx → EReal) (r : Fin m) (p : Fin M) (q : Fin N)
    (h0 : ∀ k : Fin K, x0 (ix2 r k) = h (ix2 p k)) (h1 : ∀ k : Fin K, x1 (ix2 r k) = hn (ix2 p k)) :
    entry m K N x0 x1 ws wn b r q = entry M K N h hn ws wn b p q := by
  unfold entry
  simp only [h0, h1]

/-- THE KERNEL'S BLOCK: two products of the block's rows with the weights into zero accumulators, added, plus the bias row
    spread down the block, at `(r, q)`. The operands may carry any float format (a format change is the identity on the
    extended reals). `D` is any spelling of the plain contraction record. -/
theorem block_apply {m : Nat} {φ₁ φ₂ : FTy} (D : DotDims ⟨2, ![m, K]⟩ ⟨2, ![K, N]⟩ ⟨2, ![m, N]⟩) (hD : D = DotDims.plain m K N)
    (prec : Option ContractPrecision)
    (x0 x1 : FVec Ideal ⟨2, ![m, K]⟩ φ₁) (w0 w1 : FVec Ideal ⟨2, ![K, N]⟩ φ₂) (b : FVec Ideal ⟨2, ![1, N]⟩ .f32)
    (hb : (⟨2, ![1, N]⟩ : Shape).Broadcasts ⟨2, ![m, N]⟩) (r : Fin m) (q : Fin N) :
    (FloatOps.matmul D prec x0 w0 (constant (F := Ideal) ⟨2, ![m, N]⟩ .f32 0x00000000#32) (ix2 r q)
      + FloatOps.matmul D prec x1 w1 (constant (F := Ideal) ⟨2, ![m, N]⟩ .f32 0x00000000#32) (ix2 r q))
      + broadcastTo ⟨2, ![m, N]⟩ b hb (ix2 r q)
      = entry m K N x0 x1 w0 w1 b r q := by
  subst hD
  rw [LibMatmulNN.matmul_zero_apply, LibMatmulNN.matmul_zero_apply, broadcastTo_1b_ab_apply]
  rfl

/-- A vector `[N]` placed on axis 1 of a one-row array `[1, N]` reads, at `(u, q)`, the vector at `q`. -/
theorem broadcastInDim_vec_row_apply {α : Type} (v : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h v (ix2 u q) = v (ix1 q) := by
  refine broadcastInDim_apply _ h v (ix2 u q) (ix1 q) fun ax => ?_
  match ax with
  | ⟨0, _⟩ =>
    show q.val = if N = 1 then 0 else q.val
    split
    · have := q.isLt; omega
    · rfl

/-- A vector `[N]` reshaped to a one-row array `[1, N]` is the vector placed on axis 1 of it. -/
theorem shapeCast_row_eq_broadcastInDim {α : Type} (v : (⟨1, ![N]⟩ : Shape).Idx → α)
    (hs : (⟨1, ![N]⟩ : Shape).ShapeCasts ⟨2, ![1, N]⟩) (h : (⟨1, ![N]⟩ : Shape).BroadcastsInDim ⟨2, ![1, N]⟩ ![1]) :
    shapeCast ⟨2, ![1, N]⟩ v hs = broadcastInDim ⟨2, ![1, N]⟩ ![1] h v := by
  funext i
  obtain ⟨u, q, rfl⟩ : ∃ (u : Fin 1) (q : Fin N), i = ix2 u q := ⟨i 0, i 1, eq_ix2 i⟩
  rw [shapeCast_a_1a_apply, broadcastInDim_vec_row_apply]

/-- THE HOST'S LAYER: two `dot_general`s added, plus the bias row spread down the array, is the layer. `D` is any spelling
    of the plain contraction record. -/
theorem host_dense {φ₁ φ₂ : FTy} (D : DotDims ⟨2, ![M, K]⟩ ⟨2, ![K, N]⟩ ⟨2, ![M, N]⟩) (hD : D = DotDims.plain M K N)
    (prec : Option ContractPrecision) (sched : HostSchedule)
    (h hn : FVec Ideal ⟨2, ![M, K]⟩ φ₁) (ws wn : FVec Ideal ⟨2, ![K, N]⟩ φ₂) (b : FVec Ideal ⟨2, ![1, N]⟩ .f32)
    (hb : (⟨2, ![1, N]⟩ : Shape).BroadcastsInDim ⟨2, ![M, N]⟩ ![0, 1]) :
    (fun i => (FloatOps.dotGeneral D prec sched h ws i + FloatOps.dotGeneral D prec sched hn wn i)
        + broadcastInDim ⟨2, ![M, N]⟩ ![0, 1] hb b i)
      = dense M K N h hn ws wn b := by
  subst hD
  funext i
  obtain ⟨p, q, rfl⟩ : ∃ (p : Fin M) (q : Fin N), i = ix2 p q := ⟨i 0, i 1, eq_ix2 i⟩
  rw [LibDotGeneralNN.dotGeneral_apply, LibDotGeneralNN.dotGeneral_apply, broadcastInDim_row_apply]
  rfl

/-- THE HOST'S LAYER WITH THE RECTIFIER: the maximum of the host's layer with an all-zero array is the clamped layer. -/
theorem host_denseRelu {φ₁ φ₂ : FTy} (D : DotDims ⟨2, ![M, K]⟩ ⟨2, ![K, N]⟩ ⟨2, ![M, N]⟩) (hD : D = DotDims.plain M K N)
    (prec : Option ContractPrecision) (sched : HostSchedule)
    (h hn : FVec Ideal ⟨2, ![M, K]⟩ φ₁) (ws wn : FVec Ideal ⟨2, ![K, N]⟩ φ₂) (b : FVec Ideal ⟨2, ![1, N]⟩ .f32)
    (hb : (⟨2, ![1, N]⟩ : Shape).BroadcastsInDim ⟨2, ![M, N]⟩ ![0, 1])
    (z : (⟨2, ![M, N]⟩ : Shape).Idx → EReal) (hz : ∀ i, z i = 0) :
    (fun i => max ((FloatOps.dotGeneral D prec sched h ws i + FloatOps.dotGeneral D prec sched hn wn i)
        + broadcastInDim ⟨2, ![M, N]⟩ ![0, 1] hb b i) (z i))
      = denseRelu M K N h hn ws wn b := by
  funext i
  rw [hz i]
  exact congrArg (fun y => max y (0 : EReal)) (congrFun (host_dense M K N D hD prec sched h hn ws wn b hb) i)

end LibSageDense

end
-- ==== Proof.Layer0.lean ====
/-
  Layer 0 of the kernel: what the pallas_call of that layer leaves in its output array, as one function of the arrays it
  finds when it is entered.

  The call runs over 20 grid points. At point t it sees rows 5000·t … 5000·t + 4999 of the node features and of the
  aggregated neighbour features, the two whole weight matrices and the whole bias row, and writes rows 5000·t … 5000·t + 4999
  of the output: the two products of the block's rows with the weights, added, plus the bias row, clamped below at zero. Entry
  (r, q) of that block depends on row 5000·t + r of the two feature arrays only, so it is entry (5000·t + r, q) of the dense
  layer of the whole arrays; the 20 blocks tile the 100000 rows, so the output array ends as the dense layer of the
  whole arrays.
-/
import proofs.«164498_j43396349559222_1_alg».proof.Proof.PatchedFrameKI
import proofs.«164498_j43396349559222_1_alg».proof.Proof.LibSageDense
import Idealize.ShloMosaic.Lib.Pipeline.Value
import Idealize.ShloMosaic.Lib.ValueIdx

set_option maxRecDepth 16384

noncomputable section

namespace Cert.KernelIdeal.Layer0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value at `(r, q)`: the dense layer's entry of the block's own rows. -/
theorem pay_apply (x0 x1 : Vec Ideal S5000x100 .f32) (w0 w1 : Vec Ideal S100x64 .f32) (b : Vec Ideal S1x64 .f32)
    (r : Fin 5000) (q : Fin 64) :
    k0_pay1 (F := Ideal) x0 x1 w0 w1 b (ix2 r q) = max (LibSageDense.entry 5000 100 64 x0 x1 w0 w1 b r q) 0 := by
  unfold k0_pay1
  rw [shapeCast_self, shapeCast_self]
  refine (congrArg (fun z => max z (Ideal.ofBits .f32 0x00000000#32)) (LibSageDense.block_apply 100 64 (m := 5000) dot_S5000x100_S100x64_S5000x64_1_0_0_1_n_n rfl none _ _ _ _ b broadcasts_S1x64_S5000x64 r q)).trans ?_
  rw [Ideal.ofBits_zero_f32]
  rfl

/-- The printed index maps over the 20 grid points: the two feature windows and the output window are at block row `t`,
    the weights and the bias at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ t.val < 20 :=
  (by decide +kernel : ∀ t : Fin grid0.N, _)

/-- Row `r` of the node-feature block at point `t` is row `5000·t + r` of the array. -/
theorem blk0_row (c : Dev nD) (t : Fin cfg0.N) (r : Fin 5000) (k : Fin 100) (p : Fin 100000) (hp : p.val = t.val * 5000 + r.val) :
    iblk0 V c 0 t (ix2 r k) = V c main_arg0 (ix2 p k) := by
  show V c main_arg0 (((cfg0.win 0).blk t).view.emb (ix2 r k)) = V c main_arg0 (ix2 p k)
  refine congrArg (V c main_arg0) (funext fun a => Fin.ext ?_)
  obtain ⟨e0, e1, -⟩ := index_facts t
  match a with
  | ⟨0, _⟩ => show win0_0.index t (0 : Fin 2) * 5000 + 1 * r.val = p.val; omega
  | ⟨1, _⟩ => show win0_0.index t (1 : Fin 2) * 100 + 1 * k.val = k.val; omega

/-- Row `r` of the neighbour-feature block at point `t` is row `5000·t + r` of the array. -/
theorem blk1_row (c : Dev nD) (t : Fin cfg0.N) (r : Fin 5000) (k : Fin 100) (p : Fin 100000) (hp : p.val = t.val * 5000 + r.val) :
    iblk0 V c 1 t (ix2 r k) = V c main_v20 (ix2 p k) := by
  show V c main_v20 (((cfg0.win 1).blk t).view.emb (ix2 r k)) = V c main_v20 (ix2 p k)
  refine congrArg (V c main_v20) (funext fun a => Fin.ext ?_)
  obtain ⟨-, -, e0, e1, -⟩ := index_facts t
  match a with
  | ⟨0, _⟩ => show win0_1.index t (0 : Fin 2) * 5000 + 1 * r.val = p.val; omega
  | ⟨1, _⟩ => show win0_1.index t (1 : Fin 2) * 100 + 1 * k.val = k.val; omega

/-- The self-weights' one block is the whole matrix. -/
theorem blk2_eq (c : Dev nD) (t : Fin cfg0.N) : iblk0 V c 2 t = V c main_arg3 := by
  funext y
  show V c main_arg3 (((cfg0.win 2).blk t).view.emb y) = V c main_arg3 y
  refine congrArg (V c main_arg3) (funext fun a => Fin.ext ?_)
  obtain ⟨-, -, -, -, e0, e1, -⟩ := index_facts t
  match a with
  | ⟨0, _⟩ => show win0_2.index t (0 : Fin 2) * 100 + 1 * (y 0).val = (y 0).val; omega
  | ⟨1, _⟩ => show win0_2.index t (1 : Fin 2) * 64 + 1 * (y 1).val = (y 1).val; omega

/-- The neighbour-weights' one block is the whole matrix. -/
theorem blk3_eq (c : Dev nD) (t : Fin cfg0.N) : iblk0 V c 3 t = V c main_arg4 := by
  funext y
  show V c main_arg4 (((cfg0.win 3).blk t).view.emb y) = V c main_arg4 y
  refine congrArg (V c main_arg4) (funext fun a => Fin.ext ?_)
  obtain ⟨-, -, -, -, -, -, e0, e1, -⟩ := index_facts t
  match a with
  | ⟨0, _⟩ => show win0_3.index t (0 : Fin 2) * 100 + 1 * (y 0).val = (y 0).val; omega
  | ⟨1, _⟩ => show win0_3.index t (1 : Fin 2) * 64 + 1 * (y 1).val = (y 1).val; omega

/-- The bias row's one block is the whole row. -/
theorem blk4_eq (c : Dev nD) (t : Fin cfg0.N) : iblk0 V c 4 t = V c main_v21 := by
  funext y
  show V c main_v21 (((cfg0.win 4).blk t).view.emb y) = V c main_v21 y
  refine congrArg (V c main_v21) (funext fun a => Fin.ext ?_)
  obtain ⟨-, -, -, -, -, -, -, -, e0, e1, -⟩ := index_facts t
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- WHAT POINT `t` WRITES BACK is block `t` of the dense layer of the arrays as the call finds them. -/
theorem flushed_eq (c : Dev nD) (t : Fin cfg0.N) :
    (dat0 V c).flushed 5 t = ((cfg0.win 5).blk t).view.read (Elt Ideal)
      (LibSageDense.denseRelu 100000 100 64 (V c main_arg0) (V c main_v20) (V c main_arg3) (V c main_arg4) (V c main_v21)) := by
  show (cfg0.win 5).cut (grid0.coords t) ((dat0 V c).after 5 t) = _
  rw [after0_5]
  unfold out0_5
  rw [View.canon_unit_zero offsets_zero]
  simp only [View.ld_unit_zero (S := S5000x100) offsets_zero, View.ld_unit_zero (S := S100x64) offsets_zero,
    View.ld_unit_zero (S := S1x64) offsets_zero]
  funext j
  obtain ⟨r, q, rfl⟩ : ∃ (r : Fin 5000) (q : Fin 64), j = ix2 r q := ⟨j 0, j 1, eq_ix2 j⟩
  obtain ⟨-, -, -, -, -, -, -, -, -, -, e0, e1, ht⟩ := index_facts t
  have hr : r.val < 5000 := r.isLt
  have hp : t.val * 5000 + r.val < 100000 := by omega
  have hemb : ((cfg0.win 5).blk t).view.emb (ix2 r q) = ix2 (⟨t.val * 5000 + r.val, hp⟩ : Fin 100000) q := by
    funext a; apply Fin.ext
    match a with
    | ⟨0, _⟩ => show win0_5.index t (0 : Fin 2) * 5000 + 1 * r.val = t.val * 5000 + r.val; omega
    | ⟨1, _⟩ => show win0_5.index t (1 : Fin 2) * 64 + 1 * q.val = q.val; omega
  refine (pay_apply _ _ _ _ _ r q).trans ?_
  show _ = LibSageDense.denseRelu 100000 100 64 (V c main_arg0) (V c main_v20) (V c main_arg3) (V c main_arg4) (V c main_v21) (((cfg0.win 5).blk t).view.emb (ix2 r q))
  rw [hemb, LibSageDense.denseRelu_apply, blk2_eq V c t, blk3_eq V c t, blk4_eq V c t]
  refine congrArg (fun z => max z (0 : EReal)) ?_
  exact LibSageDense.entry_of_rows 100000 100 64 _ _ _ _ _ _ _ r ⟨t.val * 5000 + r.val, hp⟩ q
    (fun k => blk0_row V c t r k _ rfl) (fun k => blk1_row V c t r k _ rfl)

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v22).slice (win0_5.rect t)).set ↔ _
  rw [View.set_slice_whole, Rect.mem_set_unit]
  exact Iff.rfl

/-- Every block row below 20 is some point's. -/
theorem index_onto : ∀ (b : Fin 20), ∃ t : Fin cfg0.N, win0_5.index t = ![b.val, 0] :=
  (by decide +kernel : ∀ (b : Fin 20), ∃ t : Fin grid0.N, win0_5.index t = ![b.val, 0])

/-- The 20 blocks tile the output array: row `p` is in block `p / 5000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE OUTPUT ARRAY after the call: the dense layer of the arrays the call finds. -/
theorem final (c : Dev nD) :
    (dat0 V c).arrAt 5 cfg0.N
      = LibSageDense.denseRelu 100000 100 64 (V c main_arg0) (V c main_v20) (V c main_arg3) (V c main_arg4) (V c main_v21) :=
  (dat0 V c).arrAt_eq_of_cover 5 _ (fun t _ => flushed_eq V c t) cover

end Cert.KernelIdeal.Layer0

end
-- ==== Proof.Layer1.lean ====
/-
  Layer 1 of the kernel: what the pallas_call of that layer leaves in its output array, as one function of the arrays it
  finds when it is entered.

  The call runs over 20 grid points. At point t it sees rows 5000·t … 5000·t + 4999 of the node features and of the
  aggregated neighbour features, the two whole weight matrices and the whole bias row, and writes rows 5000·t … 5000·t + 4999
  of the output: the two products of the block's rows with the weights, added, plus the bias row, clamped below at zero. Entry
  (r, q) of that block depends on row 5000·t + r of the two feature arrays only, so it is entry (5000·t + r, q) of the dense
  layer of the whole arrays; the 20 blocks tile the 100000 rows, so the output array ends as the dense layer of the
  whole arrays.
-/
import proofs.«164498_j43396349559222_1_alg».proof.Proof.PatchedFrameKI
import proofs.«164498_j43396349559222_1_alg».proof.Proof.LibSageDense
import Idealize.ShloMosaic.Lib.Pipeline.Value
import Idealize.ShloMosaic.Lib.ValueIdx

set_option maxRecDepth 16384

noncomputable section

namespace Cert.KernelIdeal.Layer1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value at `(r, q)`: the dense layer's entry of the block's own rows. -/
theorem pay_apply (x0 x1 : Vec Ideal S5000x64 .f32) (w0 w1 : Vec Ideal S64x64 .f32) (b : Vec Ideal S1x64 .f32)
    (r : Fin 5000) (q : Fin 64) :
    k1_pay1 (F := Ideal) x0 x1 w0 w1 b (ix2 r q) = max (LibSageDense.entry 5000 64 64 x0 x1 w0 w1 b r q) 0 := by
  unfold k1_pay1
  rw [shapeCast_self, shapeCast_self, shapeCast_self]
  refine (congrArg (fun z => max z (Ideal.ofBits .f32 0x00000000#32)) (LibSageDense.block_apply 64 64 (m := 5000) dot_S5000x64_S64x64_S5000x64_1_0_0_1_n_n rfl none _ _ _ _ b broadcasts_S1x64_S5000x64 r q)).trans ?_
  rw [Ideal.ofBits_zero_f32]
  rfl

/-- The printed index maps over the 20 grid points: the two feature windows and the output window are at block row `t`,
    the weights and the bias at their one block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ t.val < 20 :=
  (by decide +kernel : ∀ t : Fin grid1.N, _)

/-- Row `r` of the node-feature block at point `t` is row `5000·t + r` of the array. -/
theorem blk0_row (c : Dev nD) (t : Fin cfg1.N) (r : Fin 5000) (k : Fin 64) (p : Fin 100000) (hp : p.val = t.val * 5000 + r.val) :
    iblk1 V c 0 t (ix2 r k) = V c main_v22 (ix2 p k) := by
  show V c main_v22 (((cfg1.win 0).blk t).view.emb (ix2 r k)) = V c main_v22 (ix2 p k)
  refine congrArg (V c main_v22) (funext fun a => Fin.ext ?_)
  obtain ⟨e0, e1, -⟩ := index_facts t
  match a with
  | ⟨0, _⟩ => show win1_0.index t (0 : Fin 2) * 5000 + 1 * r.val = p.val; omega
  | ⟨1, _⟩ => show win1_0.index t (1 : Fin 2) * 64 + 1 * k.val = k.val; omega

/-- Row `r` of the neighbour-feature block at point `t` is row `5000·t + r` of the array. -/
theorem blk1_row (c : Dev nD) (t : Fin cfg1.N) (r : Fin 5000) (k : Fin 64) (p : Fin 100000) (hp : p.val = t.val * 5000 + r.val) :
    iblk1 V c 1 t (ix2 r k) = V c main_v35 (ix2 p k) := by
  show V c main_v35 (((cfg1.win 1).blk t).view.emb (ix2 r k)) = V c main_v35 (ix2 p k)
  refine congrArg (V c main_v35) (funext fun a => Fin.ext ?_)
  obtain ⟨-, -, e0, e1, -⟩ := index_facts t
  match a with
  | ⟨0, _⟩ => show win1_1.index t (0 : Fin 2) * 5000 + 1 * r.val = p.val; omega
  | ⟨1, _⟩ => show win1_1.index t (1 : Fin 2) * 64 + 1 * k.val = k.val; omega

/-- The self-weights' one block is the whole matrix. -/
theorem blk2_eq (c : Dev nD) (t : Fin cfg1.N) : iblk1 V c 2 t = V c main_arg6 := by
  funext y
  show V c main_arg6 (((cfg1.win 2).blk t).view.emb y) = V c main_arg6 y
  refine congrArg (V c main_arg6) (funext fun a => Fin.ext ?_)
  obtain ⟨-, -, -, -, e0, e1, -⟩ := index_facts t
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The neighbour-weights' one block is the whole matrix. -/
theorem blk3_eq (c : Dev nD) (t : Fin cfg1.N) : iblk1 V c 3 t = V c main_arg7 := by
  funext y
  show V c main_arg7 (((cfg1.win 3).blk t).view.emb y) = V c main_arg7 y
  refine congrArg (V c main_arg7) (funext fun a => Fin.ext ?_)
  obtain ⟨-, -, -, -, -, -, e0, e1, -⟩ := index_facts t
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The bias row's one block is the whole row. -/
theorem blk4_eq (c : Dev nD) (t : Fin cfg1.N) : iblk1 V c 4 t = V c main_v36 := by
  funext y
  show V c main_v36 (((cfg1.win 4).blk t).view.emb y) = V c main_v36 y
  refine congrArg (V c main_v36) (funext fun a => Fin.ext ?_)
  obtain ⟨-, -, -, -, -, -, -, -, e0, e1, -⟩ := index_facts t
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- WHAT POINT `t` WRITES BACK is block `t` of the dense layer of the arrays as the call finds them. -/
theorem flushed_eq (c : Dev nD) (t : Fin cfg1.N) :
    (dat1 V c).flushed 5 t = ((cfg1.win 5).blk t).view.read (Elt Ideal)
      (LibSageDense.denseRelu 100000 64 64 (V c main_v22) (V c main_v35) (V c main_arg6) (V c main_arg7) (V c main_v36)) := by
  show (cfg1.win 5).cut (grid1.coords t) ((dat1 V c).after 5 t) = _
  rw [after1_5]
  unfold out1_5
  rw [View.canon_unit_zero offsets_zero]
  simp only [View.ld_unit_zero (S := S5000x64) offsets_zero, View.ld_unit_zero (S := S64x64) offsets_zero,
    View.ld_unit_zero (S := S1x64) offsets_zero]
  funext j
  obtain ⟨r, q, rfl⟩ : ∃ (r : Fin 5000) (q : Fin 64), j = ix2 r q := ⟨j 0, j 1, eq_ix2 j⟩
  obtain ⟨-, -, -, -, -, -, -, -, -, -, e0, e1, ht⟩ := index_facts t
  have hr : r.val < 5000 := r.isLt
  have hp : t.val * 5000 + r.val < 100000 := by omega
  have hemb : ((cfg1.win 5).blk t).view.emb (ix2 r q) = ix2 (⟨t.val * 5000 + r.val, hp⟩ : Fin 100000) q := by
    funext a; apply Fin.ext
    match a with
    | ⟨0, _⟩ => show win1_5.index t (0 : Fin 2) * 5000 + 1 * r.val = t.val * 5000 + r.val; omega
    | ⟨1, _⟩ => show win1_5.index t (1 : Fin 2) * 64 + 1 * q.val = q.val; omega
  refine (pay_apply _ _ _ _ _ r q).trans ?_
  show _ = LibSageDense.denseRelu 100000 64 64 (V c main_v22) (V c main_v35) (V c main_arg6) (V c main_arg7) (V c main_v36) (((cfg1.win 5).blk t).view.emb (ix2 r q))
  rw [hemb, LibSageDense.denseRelu_apply, blk2_eq V c t, blk3_eq V c t, blk4_eq V c t]
  refine congrArg (fun z => max z (0 : EReal)) ?_
  exact LibSageDense.entry_of_rows 100000 64 64 _ _ _ _ _ _ _ r ⟨t.val * 5000 + r.val, hp⟩ q
    (fun k => blk0_row V c t r k _ rfl) (fun k => blk1_row V c t r k _ rfl)

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v37).slice (win1_5.rect t)).set ↔ _
  rw [View.set_slice_whole, Rect.mem_set_unit]
  exact Iff.rfl

/-- Every block row below 20 is some point's. -/
theorem index_onto : ∀ (b : Fin 20), ∃ t : Fin cfg1.N, win1_5.index t = ![b.val, 0] :=
  (by decide +kernel : ∀ (b : Fin 20), ∃ t : Fin grid1.N, win1_5.index t = ![b.val, 0])

/-- The 20 blocks tile the output array: row `p` is in block `p / 5000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE OUTPUT ARRAY after the call: the dense layer of the arrays the call finds. -/
theorem final (c : Dev nD) :
    (dat1 V c).arrAt 5 cfg1.N
      = LibSageDense.denseRelu 100000 64 64 (V c main_v22) (V c main_v35) (V c main_arg6) (V c main_arg7) (V c main_v36) :=
  (dat1 V c).arrAt_eq_of_cover 5 _ (fun t _ => flushed_eq V c t) cover

end Cert.KernelIdeal.Layer1

end
-- ==== Proof.Layer2.lean ====
/-
  Layer 2 of the kernel: what the pallas_call of that layer leaves in its output array, as one function of the arrays it
  finds when it is entered.

  The call runs over 20 grid points. At point t it sees rows 5000·t … 5000·t + 4999 of the node features and of the
  aggregated neighbour features, the two whole weight matrices and the whole bias row, and writes rows 5000·t … 5000·t + 4999
  of the output: the two products of the block's rows with the weights, added, plus the bias row. Entry
  (r, q) of that block depends on row 5000·t + r of the two feature arrays only, so it is entry (5000·t + r, q) of the dense
  layer of the whole arrays; the 20 blocks tile the 100000 rows, so the output array ends as the dense layer of the
  whole arrays.
-/
import proofs.«164498_j43396349559222_1_alg».proof.Proof.PatchedFrameKI
import proofs.«164498_j43396349559222_1_alg».proof.Proof.LibSageDense
import Idealize.ShloMosaic.Lib.Pipeline.Value
import Idealize.ShloMosaic.Lib.ValueIdx

set_option maxRecDepth 16384

noncomputable section

namespace Cert.KernelIdeal.Layer2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value at `(r, q)`: the dense layer's entry of the block's own rows. -/
theorem pay_apply (x0 x1 : Vec Ideal S5000x64 .f32) (w0 w1 : Vec Ideal S64x47 .f32) (b : Vec Ideal S1x47 .f32)
    (r : Fin 5000) (q : Fin 47) :
    k2_pay1 (F := Ideal) x0 x1 w0 w1 b (ix2 r q) = (LibSageDense.entry 5000 64 47 x0 x1 w0 w1 b r q) := by
  unfold k2_pay1
  rw [shapeCast_self, shapeCast_self, shapeCast_self]
  exact LibSageDense.block_apply 64 47 (m := 5000) dot_S5000x64_S64x47_S5000x47_1_0_0_1_n_n rfl none _ _ _ _ b broadcasts_S1x47_S5000x47 r q

/-- The printed index maps over the 20 grid points: the two feature windows and the output window are at block row `t`,
    the weights and the bias at their one block. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ t.val < 20 :=
  (by decide +kernel : ∀ t : Fin grid2.N, _)

/-- Row `r` of the node-feature block at point `t` is row `5000·t + r` of the array. -/
theorem blk0_row (c : Dev nD) (t : Fin cfg2.N) (r : Fin 5000) (k : Fin 64) (p : Fin 100000) (hp : p.val = t.val * 5000 + r.val) :
    iblk2 V c 0 t (ix2 r k) = V c main_v37 (ix2 p k) := by
  show V c main_v37 (((cfg2.win 0).blk t).view.emb (ix2 r k)) = V c main_v37 (ix2 p k)
  refine congrArg (V c main_v37) (funext fun a => Fin.ext ?_)
  obtain ⟨e0, e1, -⟩ := index_facts t
  match a with
  | ⟨0, _⟩ => show win2_0.index t (0 : Fin 2) * 5000 + 1 * r.val = p.val; omega
  | ⟨1, _⟩ => show win2_0.index t (1 : Fin 2) * 64 + 1 * k.val = k.val; omega

/-- Row `r` of the neighbour-feature block at point `t` is row `5000·t + r` of the array. -/
theorem blk1_row (c : Dev nD) (t : Fin cfg2.N) (r : Fin 5000) (k : Fin 64) (p : Fin 100000) (hp : p.val = t.val * 5000 + r.val) :
    iblk2 V c 1 t (ix2 r k) = V c main_v50 (ix2 p k) := by
  show V c main_v50 (((cfg2.win 1).blk t).view.emb (ix2 r k)) = V c main_v50 (ix2 p k)
  refine congrArg (V c main_v50) (funext fun a => Fin.ext ?_)
  obtain ⟨-, -, e0, e1, -⟩ := index_facts t
  match a with
  | ⟨0, _⟩ => show win2_1.index t (0 : Fin 2) * 5000 + 1 * r.val = p.val; omega
  | ⟨1, _⟩ => show win2_1.index t (1 : Fin 2) * 64 + 1 * k.val = k.val; omega

/-- The self-weights' one block is the whole matrix. -/
theorem blk2_eq (c : Dev nD) (t : Fin cfg2.N) : iblk2 V c 2 t = V c main_arg9 := by
  funext y
  show V c main_arg9 (((cfg2.win 2).blk t).view.emb y) = V c main_arg9 y
  refine congrArg (V c main_arg9) (funext fun a => Fin.ext ?_)
  obtain ⟨-, -, -, -, e0, e1, -⟩ := index_facts t
  match a with
  | ⟨0, _⟩ => show win2_2.index t (0 : Fin 2) * 64 + 1 * (y 0).val = (y 0).val; omega
  | ⟨1, _⟩ => show win2_2.index t (1 : Fin 2) * 47 + 1 * (y 1).val = (y 1).val; omega

/-- The neighbour-weights' one block is the whole matrix. -/
theorem blk3_eq (c : Dev nD) (t : Fin cfg2.N) : iblk2 V c 3 t = V c main_arg10 := by
  funext y
  show V c main_arg10 (((cfg2.win 3).blk t).view.emb y) = V c main_arg10 y
  refine congrArg (V c main_arg10) (funext fun a => Fin.ext ?_)
  obtain ⟨-, -, -, -, -, -, e0, e1, -⟩ := index_facts t
  match a with
  | ⟨0, _⟩ => show win2_3.index t (0 : Fin 2) * 64 + 1 * (y 0).val = (y 0).val; omega
  | ⟨1, _⟩ => show win2_3.index t (1 : Fin 2) * 47 + 1 * (y 1).val = (y 1).val; omega

/-- The bias row's one block is the whole row. -/
theorem blk4_eq (c : Dev nD) (t : Fin cfg2.N) : iblk2 V c 4 t = V c main_v51 := by
  funext y
  show V c main_v51 (((cfg2.win 4).blk t).view.emb y) = V c main_v51 y
  refine congrArg (V c main_v51) (funext fun a => Fin.ext ?_)
  obtain ⟨-, -, -, -, -, -, -, -, e0, e1, -⟩ := index_facts t
  match a with
  | ⟨0, _⟩ => show win2_4.index t (0 : Fin 2) * 1 + 1 * (y 0).val = (y 0).val; omega
  | ⟨1, _⟩ => show win2_4.index t (1 : Fin 2) * 47 + 1 * (y 1).val = (y 1).val; omega

/-- WHAT POINT `t` WRITES BACK is block `t` of the dense layer of the arrays as the call finds them. -/
theorem flushed_eq (c : Dev nD) (t : Fin cfg2.N) :
    (dat2 V c).flushed 5 t = ((cfg2.win 5).blk t).view.read (Elt Ideal)
      (LibSageDense.dense 100000 64 47 (V c main_v37) (V c main_v50) (V c main_arg9) (V c main_arg10) (V c main_v51)) := by
  show (cfg2.win 5).cut (grid2.coords t) ((dat2 V c).after 5 t) = _
  rw [after2_5]
  unfold out2_5
  rw [View.canon_unit_zero offsets_zero]
  simp only [View.ld_unit_zero (S := S5000x64) offsets_zero, View.ld_unit_zero (S := S64x47) offsets_zero,
    View.ld_unit_zero (S := S1x47) offsets_zero]
  funext j
  obtain ⟨r, q, rfl⟩ : ∃ (r : Fin 5000) (q : Fin 47), j = ix2 r q := ⟨j 0, j 1, eq_ix2 j⟩
  obtain ⟨-, -, -, -, -, -, -, -, -, -, e0, e1, ht⟩ := index_facts t
  have hr : r.val < 5000 := r.isLt
  have hp : t.val * 5000 + r.val < 100000 := by omega
  have hemb : ((cfg2.win 5).blk t).view.emb (ix2 r q) = ix2 (⟨t.val * 5000 + r.val, hp⟩ : Fin 100000) q := by
    funext a; apply Fin.ext
    match a with
    | ⟨0, _⟩ => show win2_5.index t (0 : Fin 2) * 5000 + 1 * r.val = t.val * 5000 + r.val; omega
    | ⟨1, _⟩ => show win2_5.index t (1 : Fin 2) * 47 + 1 * q.val = q.val; omega
  refine (pay_apply _ _ _ _ _ r q).trans ?_
  show _ = LibSageDense.dense 100000 64 47 (V c main_v37) (V c main_v50) (V c main_arg9) (V c main_arg10) (V c main_v51) (((cfg2.win 5).blk t).view.emb (ix2 r q))
  rw [hemb, LibSageDense.dense_apply, blk2_eq V c t, blk3_eq V c t, blk4_eq V c t]

  exact LibSageDense.entry_of_rows 100000 64 47 _ _ _ _ _ _ _ r ⟨t.val * 5000 + r.val, hp⟩ q
    (fun k => blk0_row V c t r k _ rfl) (fun k => blk1_row V c t r k _ rfl)

/-- An index of the output array is in point `t`'s block iff each coordinate is in the block's range on its axis. -/
theorem mem_blk (t : Fin cfg2.N) (i : S100000x47.Idx) :
    i ∈ ((cfg2.win 5).blk t).view.set ↔ ∀ a : Fin 2, win2_5.index t a * S5000x47.size a ≤ (i a).val ∧ (i a).val < win2_5.index t a * S5000x47.size a + S5000x47.size a := by
  show i ∈ ((View.whole main_v52).slice (win2_5.rect t)).set ↔ _
  rw [View.set_slice_whole, Rect.mem_set_unit]
  exact Iff.rfl

/-- Every block row below 20 is some point's. -/
theorem index_onto : ∀ (b : Fin 20), ∃ t : Fin cfg2.N, win2_5.index t = ![b.val, 0] :=
  (by decide +kernel : ∀ (b : Fin 20), ∃ t : Fin grid2.N, win2_5.index t = ![b.val, 0])

/-- The 20 blocks tile the output array: row `p` is in block `p / 5000`. -/
theorem cover (i : S100000x47.Idx) : ∃ t : Fin cfg2.N, (cfg2.win 5).flush t = true ∧ i ∈ ((cfg2.win 5).blk t).view.set := by
  have hi0 : (i 0).val < 100000 := (i 0).isLt
  have hi1 : (i 1).val < 47 := (i 1).isLt
  obtain ⟨t, ht⟩ := index_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 47 ≤ (i 1).val ∧ (i 1).val < win2_5.index t (1 : Fin 2) * 47 + 47; omega

/-- THE OUTPUT ARRAY after the call: the dense layer of the arrays the call finds. -/
theorem final (c : Dev nD) :
    (dat2 V c).arrAt 5 cfg2.N
      = LibSageDense.dense 100000 64 47 (V c main_v37) (V c main_v50) (V c main_arg9) (V c main_arg10) (V c main_v51) :=
  (dat2 V c).arrAt_eq_of_cover 5 _ (fun t _ => flushed_eq V c t) cover

end Cert.KernelIdeal.Layer2

end
-- ==== Proof.Spec.lean ====
/-
  The three-layer mean-aggregating graph network that both programs compute, as named functions of the twelve argument
  arrays: node features x [100000, 100], edge sources and destinations [800000], and per layer a self weight matrix, a
  neighbour weight matrix and a bias vector.

  Per layer, with h the layer's input [100000, d]:
    * every edge e gathers row src[e] of h (a negative source wrapped once by 100000), and the gathered rows are summed
      into row dst[e] of a zero array: the aggregate;
    * the in-degree of a node is counted by summing a one per incoming edge, and is raised to at least one;
    * the aggregate's row p is divided by node p's count: the neighbour mean;
    * the layer's output is h·W_self + mean·W_neigh + bias, clamped below at zero except after the last layer.
  The kernel program computes the reciprocal counts once and MULTIPLIES the aggregate by them (`meanK`); the reference
  DIVIDES the aggregate by the counts (`meanR`). The kernel program reshapes each bias to a one-row array, the reference
  places it on axis 1 of one. Everything else is operation for operation the same.
  `outK` is the kernel program's result in this vocabulary, `outR` the reference's.
-/
import proofs.«164498_j43396349559222_1_alg».proof.Proof.Gen.KernelIdeal
import proofs.«164498_j43396349559222_1_alg».proof.Proof.Gen.ReferenceIdeal
import proofs.«164498_j43396349559222_1_alg».proof.Proof.LibSageDense

noncomputable section

namespace Cert.Sage

open Cert.KernelIdeal Cert.KernelIdeal.Facts₀ Idealize.ShloMosaic Idealize.ShloMosaic.TcCoe

abbrev EdgeIdx := IVec S800000 32
abbrev EdgeCol := IVec S800000x1 32
abbrev NodeVec := FVec Ideal S100000 .f32
abbrev Feat100 := FVec Ideal S100000x100 .f32
abbrev Feat64 := FVec Ideal S100000x64 .f32
abbrev Feat47 := FVec Ideal S100000x47 .f32

/-- The edge sources as a column of row indices, a negative one wrapped once by the number of nodes. -/
def srcCol (a1 : EdgeIdx) : EdgeCol :=
  broadcastInDim S800000x1 ![0] bcast_S800000_S800000x1_0
    (select (cmpi .slt a1 (broadcastInDim S800000 ![] bcast_S_S800000 (constantI S_ 32 0#32)))
      (addi a1 (broadcastInDim S800000 ![] bcast_S_S800000 (constantI S_ 32 100000#32))) a1)

/-- The edge destinations as a column of row indices. -/
def dstCol (a2 : EdgeIdx) : EdgeCol := broadcastInDim S800000x1 ![0] bcast_S800000_S800000x1_0 a2

/-- The all-ones vector over the nodes. -/
def onesNode : NodeVec := broadcastInDim S100000 ![] bcast_S_S100000 (constant (F := Ideal) S_ .f32 0x3F800000#32)

/-- Each node's in-degree, raised to at least one. -/
def count (a2 : EdgeIdx) : NodeVec :=
  maximumf (Host.scatterAdd scatter_S100000_S800000x1_S800000_n_0_0_1
      (broadcastInDim S100000 ![] bcast_S_S100000 (constant (F := Ideal) S_ .f32 0x00000000#32)) (dstCol a2)
      (broadcastInDim S800000 ![] bcast_S_S800000 (constant (F := Ideal) S_ .f32 0x3F800000#32)))
    onesNode

/-- The reciprocal counts. -/
def invCount (a2 : EdgeIdx) : NodeVec := Host.divf onesNode (count a2)

/-- The sum of the source rows over each node's incoming edges, 100 features wide. -/
def agg100 (h : Feat100) (a1 a2 : EdgeIdx) : Feat100 :=
  Host.scatterAdd scatter_S100000x100_S800000x1_S800000x100_1_0_0_1
    (broadcastInDim S100000x100 ![] bcast_S_S100000x100 (constant (F := Ideal) S_ .f32 0x00000000#32)) (dstCol a2)
    (Host.gather gather_S100000x100_S800000x1_S800000x100_1_0_n_n_0_1_1100 h (srcCol a1))

/-- The sum of the source rows over each node's incoming edges, 64 features wide. -/
def agg64 (h : Feat64) (a1 a2 : EdgeIdx) : Feat64 :=
  Host.scatterAdd scatter_S100000x64_S800000x1_S800000x64_1_0_0_1
    (broadcastInDim S100000x64 ![] bcast_S_S100000x64 (constant (F := Ideal) S_ .f32 0x00000000#32)) (dstCol a2)
    (Host.gather gather_S100000x64_S800000x1_S800000x64_1_0_n_n_0_1_164 h (srcCol a1))

/-- The neighbour mean as the kernel program forms it: the aggregate times the reciprocal count of its row. -/
def meanK100 (h : Feat100) (a1 a2 : EdgeIdx) : Feat100 :=
  mulf (agg100 h a1 a2) (broadcastInDim S100000x100 ![0, 1] bcast_S100000x1_S100000x100_0_1
    (broadcastInDim S100000x1 ![0] bcast_S100000_S100000x1_0 (invCount a2)))
def meanK64 (h : Feat64) (a1 a2 : EdgeIdx) : Feat64 :=
  mulf (agg64 h a1 a2) (broadcastInDim S100000x64 ![0, 1] bcast_S100000x1_S100000x64_0_1
    (broadcastInDim S100000x1 ![0] bcast_S100000_S100000x1_0 (invCount a2)))

/-- The neighbour mean as the reference forms it: the aggregate divided by the count of its row. -/
def meanR100 (h : Feat100) (a1 a2 : EdgeIdx) : Feat100 :=
  Host.divf (agg100 h a1 a2) (broadcastInDim S100000x100 ![0, 1] bcast_S100000x1_S100000x100_0_1
    (broadcastInDim S100000x1 ![0] bcast_S100000_S100000x1_0 (count a2)))
def meanR64 (h : Feat64) (a1 a2 : EdgeIdx) : Feat64 :=
  Host.divf (agg64 h a1 a2) (broadcastInDim S100000x64 ![0, 1] bcast_S100000x1_S100000x64_0_1
    (broadcastInDim S100000x1 ![0] bcast_S100000_S100000x1_0 (count a2)))

/-- A bias vector reshaped to a one-row array (the kernel program's form). -/
def biasRow64 (b : FVec Ideal S64 .f32) : FVec Ideal S1x64 .f32 :=
  shapeCast S1x64 b shapeCasts_S64_S1x64
def biasRow47 (b : FVec Ideal S47 .f32) : FVec Ideal S1x47 .f32 :=
  shapeCast S1x47 b shapeCasts_S47_S1x47

/-! ## The kernel program's three layers -/

def h1K (x : Feat100) (a1 a2 : EdgeIdx) (w3 w4 : FVec Ideal S100x64 .f32)
    (b5 : FVec Ideal S64 .f32) : Feat64 :=
  LibSageDense.denseRelu 100000 100 64 x (meanK100 x a1 a2) w3 w4 (biasRow64 b5)

def h2K (h1 : Feat64) (a1 a2 : EdgeIdx) (w6 w7 : FVec Ideal S64x64 .f32)
    (b8 : FVec Ideal S64 .f32) : Feat64 :=
  LibSageDense.denseRelu 100000 64 64 h1 (meanK64 h1 a1 a2) w6 w7 (biasRow64 b8)

def h3K (h2 : Feat64) (a1 a2 : EdgeIdx) (w9 w10 : FVec Ideal S64x47 .f32)
    (b11 : FVec Ideal S47 .f32) : Feat47 :=
  LibSageDense.dense 100000 64 47 h2 (meanK64 h2 a1 a2) w9 w10 (biasRow47 b11)

/-! ## The reference's three layers, in its own operations -/

def h1R (x : Feat100) (a1 a2 : EdgeIdx) (w3 w4 : FVec Ideal S100x64 .f32)
    (b5 : FVec Ideal S64 .f32) : Feat64 :=
  maximumf (addf (addf (Host.dotGeneral Cert.ReferenceIdeal.dot_S100000x100_S100x64_S100000x64_1_0_0_1_n_n none x w3)
      (Host.dotGeneral Cert.ReferenceIdeal.dot_S100000x100_S100x64_S100000x64_1_0_0_1_n_n none (meanR100 x a1 a2) w4))
      (broadcastInDim S100000x64 ![0, 1] Cert.ReferenceIdeal.Facts₀.bcast_S1x64_S100000x64_0_1
        (broadcastInDim S1x64 ![1] Cert.ReferenceIdeal.Facts₀.bcast_S64_S1x64_1 b5)))
    (broadcastInDim S100000x64 ![] bcast_S_S100000x64 (constant (F := Ideal) S_ .f32 0x00000000#32))

def h2R (h1 : Feat64) (a1 a2 : EdgeIdx) (w6 w7 : FVec Ideal S64x64 .f32)
    (b8 : FVec Ideal S64 .f32) : Feat64 :=
  maximumf (addf (addf (Host.dotGeneral Cert.ReferenceIdeal.dot_S100000x64_S64x64_S100000x64_1_0_0_1_n_n none h1 w6)
      (Host.dotGeneral Cert.ReferenceIdeal.dot_S100000x64_S64x64_S100000x64_1_0_0_1_n_n none (meanR64 h1 a1 a2) w7))
      (broadcastInDim S100000x64 ![0, 1] Cert.ReferenceIdeal.Facts₀.bcast_S1x64_S100000x64_0_1
        (broadcastInDim S1x64 ![1] Cert.ReferenceIdeal.Facts₀.bcast_S64_S1x64_1 b8)))
    (broadcastInDim S100000x64 ![] bcast_S_S100000x64 (constant (F := Ideal) S_ .f32 0x00000000#32))

def h3R (h2 : Feat64) (a1 a2 : EdgeIdx) (w9 w10 : FVec Ideal S64x47 .f32)
    (b11 : FVec Ideal S47 .f32) : Feat47 :=
  addf (addf (Host.dotGeneral Cert.ReferenceIdeal.dot_S100000x64_S64x47_S100000x47_1_0_0_1_n_n none h2 w9)
      (Host.dotGeneral Cert.ReferenceIdeal.dot_S100000x64_S64x47_S100000x47_1_0_0_1_n_n none (meanR64 h2 a1 a2) w10))
    (broadcastInDim S100000x47 ![0, 1] Cert.ReferenceIdeal.Facts₀.bcast_S1x47_S100000x47_0_1
      (broadcastInDim S1x47 ![1] Cert.ReferenceIdeal.Facts₀.bcast_S47_S1x47_1 b11))

/-! ## The two programs' results, of the twelve arguments -/

/-- The kernel program's result. -/
def outK (x : Feat100) (a1 a2 : EdgeIdx) (w3 w4 : FVec Ideal S100x64 .f32) (b5 : FVec Ideal S64 .f32)
    (w6 w7 : FVec Ideal S64x64 .f32) (b8 : FVec Ideal S64 .f32) (w9 w10 : FVec Ideal S64x47 .f32) (b11 : FVec Ideal S47 .f32) : Feat47 :=
  h3K (h2K (h1K x a1 a2 w3 w4 b5) a1 a2 w6 w7 b8) a1 a2 w9 w10 b11

/-- The reference's result. -/
def outR (x : Feat100) (a1 a2 : EdgeIdx) (w3 w4 : FVec Ideal S100x64 .f32) (b5 : FVec Ideal S64 .f32)
    (w6 w7 : FVec Ideal S64x64 .f32) (b8 : FVec Ideal S64 .f32) (w9 w10 : FVec Ideal S64x47 .f32) (b11 : FVec Ideal S47 .f32) : Feat47 :=
  h3R (h2R (h1R x a1 a2 w3 w4 b5) a1 a2 w6 w7 b8) a1 a2 w9 w10 b11

end Cert.Sage

end
-- ==== Proof.KernelTrace.lean ====
/-
  The kernel program's result as one function of its arguments.

  The contents of the buffers are followed through the program, boundary by boundary: after the first stretch of host
  operations (the reciprocal counts, layer 1's neighbour mean, layer 1's bias row), after the first pallas_call (layer 1's
  output, everything else untouched), after the second stretch (layer 2's neighbour mean of layer 1's output, layer 2's
  bias row), and so on to the third call's output, which is the program's result. At each boundary only the buffers a
  later step reads are named: the edge lists, the reciprocal counts, the weights still to come, and the layer outputs.
  A host operation's result is the operation applied to its operands' contents at the boundary before; a pallas_call's
  output array is the dense layer of the arrays it finds, and it leaves every other buffer as it was.
-/
import proofs.«164498_j43396349559222_1_alg».proof.Proof.PatchedFrameKI
import proofs.«164498_j43396349559222_1_alg».proof.Proof.Layer0
import proofs.«164498_j43396349559222_1_alg».proof.Proof.Layer1
import proofs.«164498_j43396349559222_1_alg».proof.Proof.Layer2
import proofs.«164498_j43396349559222_1_alg».proof.Proof.Spec
import Idealize.ShloMosaic.Lib.StableHlo.Run

set_option maxRecDepth 16384

noncomputable section

namespace Cert.KernelIdeal.Trace

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg)

/-- Layer 1's output, of the arguments. -/
abbrev h1 (c : Dev nD) : Cert.Sage.Feat64 :=
  Cert.Sage.h1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- Layer 2's output, of the arguments. -/
abbrev h2 (c : Dev nD) : Cert.Sage.Feat64 :=
  Cert.Sage.h2K (h1 m c) (m ((c : Thread nD τ).loc main_arg1)) (m ((c : Thread nD τ).loc main_arg2)) (m ((c : Thread nD τ).loc main_arg6)) (m ((c : Thread nD τ).loc main_arg7)) (m ((c : Thread nD τ).loc main_arg8))
/-- Layer 3's output, the program's result, of the arguments. -/
abbrev out (c : Dev nD) : Cert.Sage.Feat47 :=
  Cert.Sage.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! ## After the first stretch of host operations -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl
theorem W1_arg11 (c : Dev nD) : W1 m ρ c (Proc.devRef .tc main_arg11) = m ((c : Thread nD τ).loc main_arg11) := by
  show StableHlo.after hostOps0 (W0 m ρ c) (Proc.devRef .tc main_arg11) = _
  after_results_simp <;> rfl
theorem W1_v7 (c : Dev nD) : W1 m ρ c (Proc.devRef .tc main_v7) = Cert.Sage.invCount (m ((c : Thread nD τ).loc main_arg2)) := by
  show StableHlo.after hostOps0 (W0 m ρ c) (Proc.devRef .tc main_v7) = _
  after_results_simp <;> rfl
theorem W1_v20 (c : Dev nD) : W1 m ρ c (Proc.devRef .tc main_v20) = Cert.Sage.meanK100 (m ((c : Thread nD τ).loc main_arg0)) (m ((c : Thread nD τ).loc main_arg1)) (m ((c : Thread nD τ).loc main_arg2)) := by
  show StableHlo.after hostOps0 (W0 m ρ c) (Proc.devRef .tc main_v20) = _
  after_results_simp <;> rfl
theorem W1_v21 (c : Dev nD) : W1 m ρ c (Proc.devRef .tc main_v21) = Cert.Sage.biasRow64 (m ((c : Thread nD τ).loc main_arg5)) := by
  show StableHlo.after hostOps0 (W0 m ρ c) (Proc.devRef .tc main_v21) = _
  after_results_simp <;> rfl

/-! ## After the first pallas_call -/

theorem W2_v22 (c : Dev nD) : W2 m ρ c (Proc.devRef .tc main_v22) = h1 m c :=
  (W2_arr m ρ c 5).trans ((Cert.KernelIdeal.Layer0.final (V1 m ρ) c).trans (by
    show LibSageDense.denseRelu 100000 100 64 (W1 m ρ c (Proc.devRef .tc main_arg0)) (W1 m ρ c (Proc.devRef .tc main_v20))
      (W1 m ρ c (Proc.devRef .tc main_arg3)) (W1 m ρ c (Proc.devRef .tc main_arg4)) (W1 m ρ c (Proc.devRef .tc main_v21)) = _
    rw [W1_arg0, W1_v20, W1_arg3, W1_arg4, W1_v21]
    rfl))
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_v7 (c : Dev nD) : W2 m ρ c (Proc.devRef .tc main_v7) = Cert.Sage.invCount (m ((c : Thread nD τ).loc main_arg2)) :=
  (W2_of_ne m ρ c main_v7 (by decide)).trans (W1_v7 m ρ c)

/-! ## After the second stretch of host operations -/

theorem W3_arg1 (c : Dev nD) : W3 m ρ c (Proc.devRef .tc main_arg1) = m ((c : Thread nD τ).loc main_arg1) := by
  show StableHlo.after hostOps1 (W2 m ρ c) (Proc.devRef .tc main_arg1) = _
  after_results_simp
  exact W2_arg1 m ρ c
theorem W3_arg2 (c : Dev nD) : W3 m ρ c (Proc.devRef .tc main_arg2) = m ((c : Thread nD τ).loc main_arg2) := by
  show StableHlo.after hostOps1 (W2 m ρ c) (Proc.devRef .tc main_arg2) = _
  after_results_simp
  exact W2_arg2 m ρ c
theorem W3_arg6 (c : Dev nD) : W3 m ρ c (Proc.devRef .tc main_arg6) = m ((c : Thread nD τ).loc main_arg6) := by
  show StableHlo.after hostOps1 (W2 m ρ c) (Proc.devRef .tc main_arg6) = _
  after_results_simp
  exact W2_arg6 m ρ c
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  exact W2_arg7 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results_simp
  exact W2_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results_simp
  exact W2_arg10 m ρ c
theorem W3_arg11 (c : Dev nD) : W3 m ρ c (Proc.devRef .tc main_arg11) = m ((c : Thread nD τ).loc main_arg11) := by
  show StableHlo.after hostOps1 (W2 m ρ c) (Proc.devRef .tc main_arg11) = _
  after_results_simp
  exact W2_arg11 m ρ c
theorem W3_v7 (c : Dev nD) : W3 m ρ c (Proc.devRef .tc main_v7) = Cert.Sage.invCount (m ((c : Thread nD τ).loc main_arg2)) := by
  show StableHlo.after hostOps1 (W2 m ρ c) (Proc.devRef .tc main_v7) = _
  after_results_simp
  exact W2_v7 m ρ c
theorem W3_v22 (c : Dev nD) : W3 m ρ c (Proc.devRef .tc main_v22) = h1 m c := by
  show StableHlo.after hostOps1 (W2 m ρ c) (Proc.devRef .tc main_v22) = _
  after_results_simp
  exact W2_v22 m ρ c
theorem W3_v35 (c : Dev nD) : W3 m ρ c (Proc.devRef .tc main_v35) = Cert.Sage.meanK64 (h1 m c) (m ((c : Thread nD τ).loc main_arg1)) (m ((c : Thread nD τ).loc main_arg2)) := by
  show StableHlo.after hostOps1 (W2 m ρ c) (Proc.devRef .tc main_v35) = _
  after_results_simp
  rw [W2_v22, W2_arg1, W2_arg2, W2_v7]
  rfl
theorem W3_v36 (c : Dev nD) : W3 m ρ c (Proc.devRef .tc main_v36) = Cert.Sage.biasRow64 (m ((c : Thread nD τ).loc main_arg8)) := by
  show StableHlo.after hostOps1 (W2 m ρ c) (Proc.devRef .tc main_v36) = _
  after_results_simp
  rw [W2_arg8]
  rfl

/-! ## After the second pallas_call -/

theorem W4_v37 (c : Dev nD) : W4 m ρ c (Proc.devRef .tc main_v37) = h2 m c :=
  (W4_arr m ρ c 5).trans ((Cert.KernelIdeal.Layer1.final (V3 m ρ) c).trans (by
    show LibSageDense.denseRelu 100000 64 64 (W3 m ρ c (Proc.devRef .tc main_v22)) (W3 m ρ c (Proc.devRef .tc main_v35))
      (W3 m ρ c (Proc.devRef .tc main_arg6)) (W3 m ρ c (Proc.devRef .tc main_arg7)) (W3 m ρ c (Proc.devRef .tc main_v36)) = _
    rw [W3_v22, W3_v35, W3_arg6, W3_arg7, W3_v36]
    rfl))
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W4_v7 (c : Dev nD) : W4 m ρ c (Proc.devRef .tc main_v7) = Cert.Sage.invCount (m ((c : Thread nD τ).loc main_arg2)) :=
  (W4_of_ne m ρ c main_v7 (by decide)).trans (W3_v7 m ρ c)

/-! ## After the third stretch of host operations -/

theorem W5_arg9 (c : Dev nD) : W5 m ρ c (Proc.devRef .tc main_arg9) = m ((c : Thread nD τ).loc main_arg9) := by
  show StableHlo.after hostOps2 (W4 m ρ c) (Proc.devRef .tc main_arg9) = _
  after_results_simp
  exact W4_arg9 m ρ c
theorem W5_arg10 (c : Dev nD) : W5 m ρ c (Proc.devRef .tc main_arg10) = m ((c : Thread nD τ).loc main_arg10) := by
  show StableHlo.after hostOps2 (W4 m ρ c) (Proc.devRef .tc main_arg10) = _
  after_results_simp
  exact W4_arg10 m ρ c
theorem W5_v37 (c : Dev nD) : W5 m ρ c (Proc.devRef .tc main_v37) = h2 m c := by
  show StableHlo.after hostOps2 (W4 m ρ c) (Proc.devRef .tc main_v37) = _
  after_results_simp
  exact W4_v37 m ρ c
theorem W5_v50 (c : Dev nD) : W5 m ρ c (Proc.devRef .tc main_v50) = Cert.Sage.meanK64 (h2 m c) (m ((c : Thread nD τ).loc main_arg1)) (m ((c : Thread nD τ).loc main_arg2)) := by
  show StableHlo.after hostOps2 (W4 m ρ c) (Proc.devRef .tc main_v50) = _
  after_results_simp
  rw [W4_v37, W4_arg1, W4_arg2, W4_v7]
  rfl
theorem W5_v51 (c : Dev nD) : W5 m ρ c (Proc.devRef .tc main_v51) = Cert.Sage.biasRow47 (m ((c : Thread nD τ).loc main_arg11)) := by
  show StableHlo.after hostOps2 (W4 m ρ c) (Proc.devRef .tc main_v51) = _
  after_results_simp
  rw [W4_arg11]
  rfl

/-! ## After the third pallas_call: the result -/

/-- THE RESULT BUFFER at the last boundary is layer 3's output of the arguments. -/
theorem result (c : Dev nD) : W6 m ρ c (Proc.devRef .tc main_v52) = out m c :=
  (W6_arr m ρ c 5).trans ((Cert.KernelIdeal.Layer2.final (V5 m ρ) c).trans (by
    show LibSageDense.dense 100000 64 47 (W5 m ρ c (Proc.devRef .tc main_v37)) (W5 m ρ c (Proc.devRef .tc main_v50))
      (W5 m ρ c (Proc.devRef .tc main_arg9)) (W5 m ρ c (Proc.devRef .tc main_arg10)) (W5 m ρ c (Proc.devRef .tc main_v51)) = _
    rw [W5_v37, W5_v50, W5_arg9, W5_arg10, W5_v51]
    rfl))

end Cert.KernelIdeal.Trace

end
-- ==== Proof.RefValue.lean ====
/-
  The reference's result as one function of its arguments: its run's composed term is, operation for operation, the
  three layers of the network in the reference's own operations (the neighbour mean a quotient, the bias placed on
  axis 1 of a one-row array).
-/
import proofs.«164498_j43396349559222_1_alg».proof.Proof.Gen.ReferenceIdeal.Run
import proofs.«164498_j43396349559222_1_alg».proof.Proof.Spec

noncomputable section

namespace Cert.ReferenceIdeal.RefValue

open Cert.ReferenceIdeal Idealize.ShloMosaic Idealize.ShloMosaic.TcCoe Idealize.SL.Sem

variable (m : (ℓ : Loc nD τ sig) → Buf (Elt Ideal) ℓ)

set_option maxRecDepth 16384 in
set_option maxHeartbeats 4000000 in
/-- THE RESULT of the reference's run is the network of the reference's arguments. -/
theorem result (c : Dev nD) :
    Cert.ReferenceIdeal.Value.res_main_v76 (F := Ideal) m c
      = Cert.Sage.outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v76
  rfl

end Cert.ReferenceIdeal.RefValue

end
-- ==== Proof.LibLayerAlgebra.lean ====
/-
  The two laws that join the kernel's dense layer to the reference's, on the extended reals.

  * The kernel scales a row of aggregated sums by the RECIPROCAL of the row's count, `a · (1 / y)`, where the
    reference DIVIDES by the count, `a / y`. For a real `y ≠ 0` these agree for every extended real `a`, the
    infinities included: the quotient by a nonzero real is by definition the product with its real reciprocal.
  * The kernel adds the two matrix products first and the bias last, the reference adds the bias between them.
    Addition of extended reals is commutative and associative, so the groupings agree with no finiteness.
-/
import Idealize.ShloMosaic.PureOps.Ideal.Laws

noncomputable section

namespace LibLayerAlgebra

open Idealize.ShloMosaic

/-- Multiplying by the reciprocal of a nonzero real is dividing by it. `one` is any spelling of the real one. -/
theorem mul_recip_eq_div {one : EReal} (hone : one = 1) {y : ℝ} (hy : y ≠ 0) (a : EReal) :
    a * Ideal.div one (y : EReal) = Ideal.div a (y : EReal) := by
  rw [hone, Ideal.div_coe hy 1, one_mul, Ideal.div_coe hy a]

/-- The bias added last is the bias added between the two products. -/
theorem bias_last_eq_between (A B b : EReal) : (A + B) + b = (A + b) + B := add_right_comm A B b

end LibLayerAlgebra

end
-- ==== Proof.LibMeanAlgebra.lean ====
/-
  The algebra of a mean-aggregating graph layer on the extended reals.

  Three facts, none about any program:
  * a finite sum of nonnegative reals, taken in the extended reals, is a nonnegative real — so a node's in-degree,
    counted by adding a one for every incoming edge, is a nonnegative real, and its maximum with one is a positive real;
  * dividing every entry of a row by a positive real `y` BEFORE contracting the row with a column gives the
    contraction multiplied by `1 / y` AFTER: `∑ₖ (aₖ / y) · wₖ = (∑ₖ aₖ · wₖ) · (1 / y)`. On the extended reals this
    needs no finiteness of `a` or `w`: the reciprocal of a positive real is a nonnegative real different from `⊤`, and
    multiplication by such a factor distributes over every sum of extended reals, infinite terms included;
  * the float pattern of `1.0` denotes the real one.
-/
import Idealize.ShloMosaic.PureOps.Ideal.Laws

noncomputable section

open scoped BigOperators

namespace LibMeanAlgebra

open Idealize.ShloMosaic

/-- The pattern of `1.0` denotes one. -/
theorem ofBits_one : Ideal.ofBits .f32 0x3F800000#32 = 1 := by
  simp [Ideal.ofBits, Ideal.ieee, -EReal.coe_mul]; norm_num

/-- A finite sum of nonnegative reals, taken in the extended reals, is a nonnegative real. -/
theorem sum_real_nonneg {ι : Type} (s : Finset ι) (f : ι → EReal)
    (hf : ∀ j ∈ s, ∃ r : ℝ, 0 ≤ r ∧ f j = (r : EReal)) :
    ∃ r : ℝ, 0 ≤ r ∧ ∑ j ∈ s, f j = (r : EReal) := by
  classical
  induction s using Finset.induction_on with
  | empty => exact ⟨0, le_refl 0, by simp⟩
  | insert a s ha ih =>
    obtain ⟨r, hr, e⟩ := hf a (Finset.mem_insert_self a s)
    obtain ⟨r', hr', e'⟩ := ih (fun j hj => hf j (Finset.mem_insert_of_mem hj))
    exact ⟨r + r', add_nonneg hr hr', by rw [Finset.sum_insert ha, e, e', EReal.coe_add]⟩

/-- COUNTING BY SCATTER: adding a one into a zero array for every update that lands on an element leaves, at every
    element, a nonnegative real (the number of updates that landed there). -/
theorem scatter_ones_real {s si su : Shape} (d : ScatterDims s si su) {w : Nat} (x : s.Idx → EReal) (idx : IVec si w)
    (upd : su.Idx → EReal) (i : s.Idx) (hx : x i = 0) (hu : ∀ j, upd j = 1) :
    ∃ r : ℝ, 0 ≤ r ∧ Ideal.hostScatterAdd d x idx upd i = (r : EReal) := by
  obtain ⟨r, hr, e⟩ := sum_real_nonneg (Finset.univ.filter fun j => d.resultIdx? j idx = some i) upd
    (fun j _ => ⟨1, zero_le_one, by rw [hu j, EReal.coe_one]⟩)
  exact ⟨r, hr, by unfold Ideal.hostScatterAdd; rw [hx, zero_add, e]⟩

/-- The maximum of a nonnegative real with one is a positive real. -/
theorem max_one_pos {z one : EReal} (hone : one = 1) (hz : ∃ r : ℝ, 0 ≤ r ∧ z = (r : EReal)) :
    ∃ y : ℝ, 0 < y ∧ max z one = (y : EReal) := by
  obtain ⟨r, _, rfl⟩ := hz
  refine ⟨max r 1, lt_of_lt_of_le zero_lt_one (le_max_right r 1), ?_⟩
  rw [hone, ← EReal.coe_one]
  exact (EReal.coe_strictMono.monotone.map_max).symm

/-- Multiplication by a nonnegative real distributes over a finite sum of extended reals. -/
theorem sum_mul_real {ι : Type} (s : Finset ι) (f : ι → EReal) {c : EReal} (hc : 0 ≤ c) (hct : c ≠ ⊤) :
    ∑ k ∈ s, f k * c = (∑ k ∈ s, f k) * c := by
  classical
  induction s using Finset.induction_on with
  | empty => simp
  | insert j s hj ih =>
    rw [Finset.sum_insert hj, Finset.sum_insert hj, ih, EReal.right_distrib_of_nonneg_of_ne_top hc hct]

/-- THE MEAN COMMUTES WITH THE LINEAR MAP: dividing a row by a positive real before contracting it with a column is
    multiplying the contraction by the reciprocal afterwards. `one` is any spelling of the real one. -/
theorem sum_div_mul {ι : Type} [Fintype ι] (a w : ι → EReal) {one : EReal} (hone : one = 1) {y : ℝ} (hy : 0 < y) :
    ∑ k, Ideal.div (a k) (y : EReal) * w k = (∑ k, a k * w k) * Ideal.div one (y : EReal) := by
  have hy0 : y ≠ 0 := ne_of_gt hy
  have hc : (0 : EReal) ≤ ((1 / y : ℝ) : EReal) := by exact_mod_cast (one_div_pos.mpr hy).le
  rw [hone, Ideal.div_coe hy0 1, one_mul, ← sum_mul_real Finset.univ _ hc (EReal.coe_ne_top _)]
  refine Finset.sum_congr rfl fun k _ => ?_
  rw [Ideal.div_coe hy0, mul_right_comm]

end LibMeanAlgebra

end
-- ==== Proof.LibMeanScale.lean ====
/-
  The mean over incoming edges, scaled two ways, on the extended reals.

  A mean-aggregating graph layer sums the features of a node's in-neighbours and divides by the node's in-degree (at
  least one). One program multiplies every row `p` of the sums by the reciprocal `1 / cnt[p]`, computed once; another divides
  row `p` by `cnt[p]`. When every count is a positive real the two arrays are equal, entry by entry and for every
  extended-real sum, the infinities included: the quotient by a nonzero real is the product with its real reciprocal.
  Also here: the layout steps that carry a per-node vector to a per-entry array (a vector `[a]` placed as the column
  `[a, 1]`, a scalar spread over a whole array), read at an index; and that counting edges by scattering ones into zeros
  and taking the maximum with one gives a positive real at every node.
  General in every extent.
-/
import Idealize.ShloMosaic.PureOps.Ideal.Laws
import Idealize.ShloMosaic.Lib.ValueIdx
import Idealize.ShloMosaic.Lib.Pipeline.Value
import proofs.«164498_j43396349559222_1_alg».proof.Proof.LibLayerAlgebra
import proofs.«164498_j43396349559222_1_alg».proof.Proof.LibMeanAlgebra
import proofs.«164498_j43396349559222_1_alg».proof.Proof.LibBroadcastInDimPair

noncomputable section

namespace LibMeanScale

open Idealize.ShloMosaic Idealize.ShloMosaic.ValueIdx

/-- A vector `[a]` placed on axis 0 of a column `[a, 1]` reads, at `(p, u)`, the vector at `p`. -/
theorem broadcastInDim_vec_col_apply {α : Type} {a : Nat} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A scalar spread over a whole array reads, at every index, the scalar. -/
theorem broadcastInDim_scalar_apply {α : Type} {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

/-- A per-node vector carried to a per-entry array (column, then spread along the features) reads, at `(p, q)`, the
    vector at `p`. -/
theorem spread_apply {α : Type} {a b : Nat} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_col_apply, broadcastInDim_vec_col_apply]

/-- MULTIPLYING BY THE RECIPROCAL COUNT IS DIVIDING BY THE COUNT, array against array: for counts that are positive
    reals and `one` the all-ones vector. -/
theorem mul_recip_eq_div {a b : Nat} (agg : FVec Ideal ⟨2, ![a, b]⟩ .f32) (one cnt : FVec Ideal ⟨1, ![a]⟩ .f32)
    (h1 : (⟨1, ![a]⟩ : Shape).BroadcastsInDim ⟨2, ![a, 1]⟩ ![0])
    (h2 : (⟨2, ![a, 1]⟩ : Shape).BroadcastsInDim ⟨2, ![a, b]⟩ ![0, 1])
    (hone : ∀ i, one i = 1) (hcnt : ∀ i, ∃ y : ℝ, 0 < y ∧ cnt i = (y : EReal)) :
    mulf agg (broadcastInDim ⟨2, ![a, b]⟩ ![0, 1] h2 (broadcastInDim ⟨2, ![a, 1]⟩ ![0] h1 (Host.divf one cnt)))
      = Host.divf agg (broadcastInDim ⟨2, ![a, b]⟩ ![0, 1] h2 (broadcastInDim ⟨2, ![a, 1]⟩ ![0] h1 cnt)) := by
  funext i
  obtain ⟨p, q, rfl⟩ : ∃ (p : Fin a) (q : Fin b), i = ix2 p q := ⟨i 0, i 1, eq_ix2 i⟩
  show agg (ix2 p q) * broadcastInDim ⟨2, ![a, b]⟩ ![0, 1] h2 (broadcastInDim ⟨2, ![a, 1]⟩ ![0] h1 (Host.divf one cnt)) (ix2 p q)
    = Ideal.div (agg (ix2 p q)) (broadcastInDim ⟨2, ![a, b]⟩ ![0, 1] h2 (broadcastInDim ⟨2, ![a, 1]⟩ ![0] h1 cnt) (ix2 p q))
  rw [spread_apply, spread_apply]
  obtain ⟨y, hy, e⟩ := hcnt (ix1 p)
  show agg (ix2 p q) * Ideal.div (one (ix1 p)) (cnt (ix1 p)) = Ideal.div (agg (ix2 p q)) (cnt (ix1 p))
  rw [e]
  exact LibLayerAlgebra.mul_recip_eq_div (hone _) (ne_of_gt hy) _

/-- COUNTING IN-EDGES: ones scattered into zeros, then the maximum with one, is a positive real at every node. -/
theorem count_pos {s si su : Shape} (d : ScatterDims s si su) {w : Nat} (zero one' : FVec Ideal s .f32) (idx : IVec si w)
    (one : FVec Ideal su .f32) (hz : ∀ i, zero i = 0) (ho : ∀ j, one j = 1) (ho' : ∀ i, one' i = 1) (i : s.Idx) :
    ∃ y : ℝ, 0 < y ∧ maximumf (Host.scatterAdd d zero idx one) one' i = (y : EReal) :=
  LibMeanAlgebra.max_one_pos (ho' i) (LibMeanAlgebra.scatter_ones_real d zero idx one i (hz i) ho)

end LibMeanScale

end
-- ==== Proof.Bridge.lean ====
/-
  The reference's layers are the kernel program's layers.

  Two differences separate the two programs' terms, and neither changes a value on the extended reals:
    * the neighbour mean: the aggregate times the reciprocal count (kernel) against the aggregate divided by the count
      (reference). A node's count is a positive real — a sum of ones, one per incoming edge, raised to at least one — so
      the quotient by it IS the product with its reciprocal, for every extended-real aggregate;
    * the bias: a vector reshaped to a one-row array (kernel) against the vector placed on axis 1 of a one-row array
      (reference) — the same array.
  With those, the reference's `dot_general`s, additions and maximum with zero are entry by entry the dense layer that
  the kernel's blocks assemble.
-/
import proofs.«164498_j43396349559222_1_alg».proof.Proof.Spec
import proofs.«164498_j43396349559222_1_alg».proof.Proof.LibMeanScale
import proofs.«164498_j43396349559222_1_alg».proof.Proof.LibSageDense

noncomputable section

namespace Cert.Sage

open Cert.KernelIdeal Cert.KernelIdeal.Facts₀ Idealize.ShloMosaic Idealize.ShloMosaic.TcCoe Idealize.ShloMosaic.ValueIdx

/-- A zero spread over an array is zero at every index. -/
theorem zeros_apply {s : Shape} (h : (⟨0, ![]⟩ : Shape).BroadcastsInDim s ![]) (i : s.Idx) :
    broadcastInDim s ![] h (constant (F := Ideal) S_ .f32 0x00000000#32) i = 0 :=
  (LibMeanScale.broadcastInDim_scalar_apply _ h i).trans Ideal.ofBits_zero_f32

/-- A one spread over an array is one at every index. -/
theorem ones_apply {s : Shape} (h : (⟨0, ![]⟩ : Shape).BroadcastsInDim s ![]) (i : s.Idx) :
    broadcastInDim s ![] h (constant (F := Ideal) S_ .f32 0x3F800000#32) i = 1 :=
  (LibMeanScale.broadcastInDim_scalar_apply _ h i).trans LibMeanAlgebra.ofBits_one

/-- Every node's count is a positive real. -/
theorem count_pos (a2 : EdgeIdx) (i : S100000.Idx) : ∃ y : ℝ, 0 < y ∧ count a2 i = (y : EReal) :=
  LibMeanScale.count_pos scatter_S100000_S800000x1_S800000_n_0_0_1 _ onesNode (dstCol a2) _
    (zeros_apply bcast_S_S100000) (ones_apply bcast_S_S800000) (ones_apply bcast_S_S100000) i

/-- THE MEAN, 100 features wide: times the reciprocal count is divided by the count. -/
theorem meanK100_eq (h : Feat100) (a1 a2 : EdgeIdx) : meanK100 h a1 a2 = meanR100 h a1 a2 :=
  LibMeanScale.mul_recip_eq_div (agg100 h a1 a2) onesNode (count a2) bcast_S100000_S100000x1_0
    bcast_S100000x1_S100000x100_0_1 (ones_apply bcast_S_S100000) (count_pos a2)

/-- THE MEAN, 64 features wide. -/
theorem meanK64_eq (h : Feat64) (a1 a2 : EdgeIdx) : meanK64 h a1 a2 = meanR64 h a1 a2 :=
  LibMeanScale.mul_recip_eq_div (agg64 h a1 a2) onesNode (count a2) bcast_S100000_S100000x1_0
    bcast_S100000x1_S100000x64_0_1 (ones_apply bcast_S_S100000) (count_pos a2)

/-- The two spellings of a bias row, 64 wide. -/
theorem biasRow64_eq (b : FVec Ideal S64 .f32) :
    biasRow64 b = broadcastInDim S1x64 ![1] Cert.ReferenceIdeal.Facts₀.bcast_S64_S1x64_1 b :=
  LibSageDense.shapeCast_row_eq_broadcastInDim 64 b _ _

/-- The two spellings of a bias row, 47 wide. -/
theorem biasRow47_eq (b : FVec Ideal S47 .f32) :
    biasRow47 b = broadcastInDim S1x47 ![1] Cert.ReferenceIdeal.Facts₀.bcast_S47_S1x47_1 b :=
  LibSageDense.shapeCast_row_eq_broadcastInDim 47 b _ _

/-- LAYER 1: the reference's is the kernel program's. -/
theorem h1R_eq (x : Feat100) (a1 a2 : EdgeIdx) (w3 w4 : FVec Ideal S100x64 .f32) (b5 : FVec Ideal S64 .f32) :
    h1R x a1 a2 w3 w4 b5 = h1K x a1 a2 w3 w4 b5 := by
  unfold h1K
  rw [meanK100_eq, biasRow64_eq]
  exact LibSageDense.host_denseRelu 100000 100 64 Cert.ReferenceIdeal.dot_S100000x100_S100x64_S100000x64_1_0_0_1_n_n rfl none _
    x (meanR100 x a1 a2) w3 w4 _ Cert.ReferenceIdeal.Facts₀.bcast_S1x64_S100000x64_0_1 _ (zeros_apply bcast_S_S100000x64)

/-- LAYER 2. -/
theorem h2R_eq (h1 : Feat64) (a1 a2 : EdgeIdx) (w6 w7 : FVec Ideal S64x64 .f32) (b8 : FVec Ideal S64 .f32) :
    h2R h1 a1 a2 w6 w7 b8 = h2K h1 a1 a2 w6 w7 b8 := by
  unfold h2K
  rw [meanK64_eq, biasRow64_eq]
  exact LibSageDense.host_denseRelu 100000 64 64 Cert.ReferenceIdeal.dot_S100000x64_S64x64_S100000x64_1_0_0_1_n_n rfl none _
    h1 (meanR64 h1 a1 a2) w6 w7 _ Cert.ReferenceIdeal.Facts₀.bcast_S1x64_S100000x64_0_1 _ (zeros_apply bcast_S_S100000x64)

/-- LAYER 3 (no rectifier). -/
theorem h3R_eq (h2 : Feat64) (a1 a2 : EdgeIdx) (w9 w10 : FVec Ideal S64x47 .f32) (b11 : FVec Ideal S47 .f32) :
    h3R h2 a1 a2 w9 w10 b11 = h3K h2 a1 a2 w9 w10 b11 := by
  unfold h3K
  rw [meanK64_eq, biasRow47_eq]
  exact LibSageDense.host_dense 100000 64 47 Cert.ReferenceIdeal.dot_S100000x64_S64x47_S100000x47_1_0_0_1_n_n rfl none _
    h2 (meanR64 h2 a1 a2) w9 w10 _ Cert.ReferenceIdeal.Facts₀.bcast_S1x47_S100000x47_0_1

/-- THE WHOLE NETWORK: the reference's result is the kernel program's, for every argument. -/
theorem outR_eq_outK (x : Feat100) (a1 a2 : EdgeIdx) (w3 w4 : FVec Ideal S100x64 .f32) (b5 : FVec Ideal S64 .f32)
    (w6 w7 : FVec Ideal S64x64 .f32) (b8 : FVec Ideal S64 .f32) (w9 w10 : FVec Ideal S64x47 .f32) (b11 : FVec Ideal S47 .f32) :
    outR x a1 a2 w3 w4 b5 w6 w7 b8 w9 w10 b11 = outK x a1 a2 w3 w4 b5 w6 w7 b8 w9 w10 b11 := by
  unfold outR outK
  rw [h1R_eq, h2R_eq, h3R_eq]

end Cert.Sage

end
-- ==== Proof.lean ====
/-
  The certificate of a three-layer mean-aggregating graph network (node features [100000, 100], 800000 edges, layer
  widths 100 → 64 → 64 → 47): a program whose per-node linear maps run as three pallas_calls, against a plain jnp reference.

  Both programs, per layer, gather the source row of every edge, sum the gathered rows into the destination rows, count
  every node's incoming edges (at least one), and form h·W_self + mean·W_neigh + bias, clamped below at zero except
  after the last layer. They differ in two spellings only. The kernel program computes the reciprocal counts once and
  multiplies the aggregate by them, the reference divides the aggregate by the counts: a count is a positive real, so
  the quotient by it is the product with its reciprocal for every extended real. And the kernel program's dense maps
  run block by block over 20 blocks of 5000 rows, in bf16 operands with f32 accumulation: on the extended reals a change
  of format is the identity, a block's entry is the same sum over the features as the whole array's, and the blocks
  tile the rows. So the two results are equal entry by entry, with no use of the inputs' finiteness.

  The frames: the two kernel programs' are their generated frame certificates, the reference's is its generated run
  with the result dropped. The idealization rewrote nothing.
-/
import proofs.«164498_j43396349559222_1_alg».proof.Defs
import proofs.«164498_j43396349559222_1_alg».proof.Proof.Gen.Kernel
import proofs.«164498_j43396349559222_1_alg».proof.Proof.Gen.KernelIdeal
import proofs.«164498_j43396349559222_1_alg».proof.Proof.Gen.ReferenceIdeal
import proofs.«164498_j43396349559222_1_alg».proof.Proof.Gen.Pre_finite_inputs
import proofs.«164498_j43396349559222_1_alg».proof.Proof.Gen.ReferenceIdeal.Run
import proofs.«164498_j43396349559222_1_alg».proof.Proof.PatchedFrameK
import proofs.«164498_j43396349559222_1_alg».proof.Proof.PatchedFrameKI
import proofs.«164498_j43396349559222_1_alg».proof.Proof.KernelRun
import proofs.«164498_j43396349559222_1_alg».proof.Proof.KernelTrace
import proofs.«164498_j43396349559222_1_alg».proof.Proof.RefValue
import proofs.«164498_j43396349559222_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.GenP.frame m ρ

/-- The idealized kernel program runs and leaves its arguments unchanged. -/
theorem frame_kernelIdeal : Cert.frame_KernelIdeal := fun m ρ _ => Cert.KernelIdeal.GenP.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the twelve arguments both programs end with the network of those arguments in their
    result buffers: the kernel program's trace through its three calls, the reference's composed term, and the two
    spellings of the network agreeing for every argument. -/
theorem algebraic : Cert.algebraic_KernelIdeal_ReferenceIdeal := by
  intro m ρ m' ρ' _ hagree
  refine ⟨fun c => Cert.KernelIdeal.Trace.out m c, ?_, ?_⟩
  · exact (θ_run Cert.KernelIdeal.defs _ _).mono
      (fun r h c => ⟨(h c).1.trans (Cert.KernelIdeal.Trace.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    have hR := Cert.ReferenceIdeal.RefValue.result m' c
    obtain ⟨e0, e1, e2, e3, e4, e5, e6, e7, e8, e9, e10, e11⟩ := hagree c
    rw [e0, e1, e2, e3, e4, e5, e6, e7, e8, e9, e10, e11] at hR
    exact hR.trans (Cert.Sage.outR_eq_outK _ _ _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
